-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x128 : Shape := ⟨3, ![64, 128, 128]⟩
abbrev S64 : Shape := ⟨1, ![64]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩

class Facts : Prop where
  bcast_S_S64x128x128 : S_.BroadcastsInDim S64x128x128 (![] : Fin 0 → Fin S64x128x128.rank)
  reducesTo_S64x128x128_S_d0_1_2 : S64x128x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S64 : S_.BroadcastsInDim S64 (![] : Fin 0 → Fin S64.rank)
  reducesTo_S64_S_d0 : S64.ReducesTo [0] S_

variable [Facts]

def fn_part4 {F : FTy → Type} [FloatOps F] (main_arg5 : IVec S64 32) (main_v65 : IVec S_ 1) (main_v67 : IVec S64 1) : IVec S_ 1 :=
  let main_c_26 : IVec S_ 32 := constantI S_ 32 128#32
  let main_v68 : IVec S64 32 := broadcastInDim S64 ![] bcast_S_S64 main_c_26
  let main_v69 : IVec S64 1 := cmpi .sle main_arg5 main_v68
  let main_v70 : IVec S64 1 := andi main_v67 main_v69
  let main_c_27 : IVec S_ 1 := constantI S_ 1 1#1
  let main_v71 : IVec S_ 1 := (fun x v => Host.reduce IntOp.andi x v reducesTo_S64_S_d0 h_S_) main_v70 main_c_27
  let main_v72 : IVec S_ 1 := andi main_v65 main_v71
  main_v72

def fn_part3 {F : FTy → Type} [FloatOps F] (main_arg4 : IVec S64 32) (main_arg5 : IVec S64 32) (main_arg13 : FVec F S2 .f32) (main_v48 : IVec S_ 1) (main_v49 : FVec F S256x2 .f32) (main_v50 : FVec F S256x2 .f32) : IVec S_ 1 :=
  let main_v51 : IVec S256x2 1 := cmpf .olt main_v49 main_v50
  let main_c_19 : IVec S_ 1 := constantI S_ 1 1#1
  let main_v52 : IVec S_ 1 := (fun x v => Host.reduce IntOp.andi x v reducesTo_S256x2_S_d0_1 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_c_22 : IVec S_ 32 := constantI S_ 32 0#32
  let main_v59 : IVec S64 32 := broadcastInDim S64 ![] bcast_S_S64 main_c_22
  let main_v60 : IVec S64 1 := cmpi .sge main_arg4 main_v59
  let main_c_23 : IVec S_ 32 := constantI S_ 32 128#32
  let main_v61 : IVec S64 32 := broadcastInDim S64 ![] bcast_S_S64 main_c_23
  let main_v62 : IVec S64 1 := cmpi .sle main_arg4 main_v61
  let main_v63 : IVec S64 1 := andi main_v60 main_v62
  let main_c_24 : IVec S_ 1 := constantI S_ 1 1#1
  let main_v64 : IVec S_ 1 := (fun x v => Host.reduce IntOp.andi x v reducesTo_S64_S_d0 h_S_) main_v63 main_c_24
  let main_v65 : IVec S_ 1 := andi main_v58 main_v64
  let main_c_25 : IVec S_ 32 := constantI S_ 32 0#32
  let main_v66 : IVec S64 32 := broadcastInDim S64 ![] bcast_S_S64 main_c_25
  let main_v67 : IVec S64 1 := cmpi .sge main_arg5 main_v66
  fn_part4 (F := F) main_arg5 main_v65 main_v67

def fn_part2 {F : FTy → Type} [FloatOps F] (main_arg4 : IVec S64 32) (main_arg5 : IVec S64 32) (main_arg9 : FVec F S128 .f32) (main_arg10 : FVec F S128x128 .f32) (main_arg11 : FVec F S128 .f32) (main_arg12 : FVec F S256x2 .f32) (main_arg13 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x2 .f32 := Host.absf main_arg12
  let main_cst_18 : FVec F S_ .f32 := constant S_ .f32 0x7F800000#32
  let main_v50 : FVec F S256x2 .f32 := broadcastInDim S256x2 ![] bcast_S_S256x2 main_cst_18
  fn_part3 (F := F) main_arg4 main_arg5 main_arg13 main_v48 main_v49 main_v50

def fn_part1 {F : FTy → Type} [FloatOps F] (main_arg4 : IVec S64 32) (main_arg5 : IVec S64 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S256x2 .f32) (main_arg13 : FVec F S2 .f32) (main_v13 : IVec S_ 1) (main_v16 : IVec S64x128x128 1) : IVec S_ 1 :=
  let main_c_5 : IVec S_ 1 := constantI S_ 1 1#1
  let main_v17 : IVec S_ 1 := (fun x v => Host.reduce IntOp.andi x v reducesTo_S64x128x128_S_d0_1_2 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg4 main_arg5 main_arg9 main_arg10 main_arg11 main_arg12 main_arg13 main_v33

def fn {F : FTy → Type} [FloatOps F] (main_arg0 : FVec F S64x128x128 .f32) (main_arg1 : FVec F S64x128x128 .f32) (main_arg2 : FVec F S64x128x128 .f32) (main_arg3 : FVec F S64x128x128 .f32) (main_arg4 : IVec S64 32) (main_arg5 : IVec S64 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S256x2 .f32) (main_arg13 : FVec F S2 .f32) : IVec S_ 1 :=
  let main_v0 : FVec F S64x128x128 .f32 := Host.absf main_arg0
  let main_cst : FVec F S_ .f32 := constant S_ .f32 0x7F800000#32
  let main_v1 : FVec F S64x128x128 .f32 := broadcastInDim S64x128x128 ![] bcast_S_S64x128x128 main_cst
  let main_v2 : IVec S64x128x128 1 := cmpf .olt main_v0 main_v1
  let main_c : IVec S_ 1 := constantI S_ 1 1#1
  let main_v3 : IVec S_ 1 := (fun x v => Host.reduce IntOp.andi x v reducesTo_S64x128x128_S_d0_1_2 h_S_) main_v2 main_c
  let main_v4 : FVec F S64x128x128 .f32 := Host.absf main_arg1
  let main_cst_0 : FVec F S_ .f32 := constant S_ .f32 0x7F800000#32
  let main_v5 : FVec F S64x128x128 .f32 := broadcastInDim S64x128x128 ![] bcast_S_S64x128x128 main_cst_0
  let main_v6 : IVec S64x128x128 1 := cmpf .olt main_v4 main_v5
  let main_c_1 : IVec S_ 1 := constantI S_ 1 1#1
  let main_v7 : IVec S_ 1 := (fun x v => Host.reduce IntOp.andi x v reducesTo_S64x128x128_S_d0_1_2 h_S_) main_v6 main_c_1
  let main_v8 : IVec S_ 1 := andi main_v3 main_v7
  let main_v9 : FVec F S64x128x128 .f32 := Host.absf main_arg2
  let main_cst_2 : FVec F S_ .f32 := constant S_ .f32 0x7F800000#32
  let main_v10 : FVec F S64x128x128 .f32 := broadcastInDim S64x128x128 ![] bcast_S_S64x128x128 main_cst_2
  let main_v11 : IVec S64x128x128 1 := cmpf .olt main_v9 main_v10
  let main_c_3 : IVec S_ 1 := constantI S_ 1 1#1
  let main_v12 : IVec S_ 1 := (fun x v => Host.reduce IntOp.andi x v reducesTo_S64x128x128_S_d0_1_2 h_S_) main_v11 main_c_3
  let main_v13 : IVec S_ 1 := andi main_v8 main_v12
  let main_v14 : FVec F S64x128x128 .f32 := Host.absf main_arg3
  let main_cst_4 : FVec F S_ .f32 := constant S_ .f32 0x7F800000#32
  let main_v15 : FVec F S64x128x128 .f32 := broadcastInDim S64x128x128 ![] bcast_S_S64x128x128 main_cst_4
  let main_v16 : IVec S64x128x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S64x128x128 : Shape := ⟨3, ![64, 128, 128]⟩
abbrev S64 : Shape := ⟨1, ![64]⟩
abbrev S128x128 : Shape := ⟨2, ![128, 128]⟩
abbrev S128 : Shape := ⟨1, ![128]⟩
abbrev S256x2 : Shape := ⟨2, ![256, 2]⟩
abbrev S2 : Shape := ⟨1, ![2]⟩
abbrev S64x1 : Shape := ⟨2, ![64, 1]⟩
abbrev S1x128 : Shape := ⟨2, ![1, 128]⟩
abbrev S1x2 : Shape := ⟨2, ![1, 2]⟩
abbrev S64x2 : Shape := ⟨2, ![64, 2]⟩
abbrev S8x128x128 : Shape := ⟨3, ![8, 128, 128]⟩
abbrev S8x1 : Shape := ⟨2, ![8, 1]⟩
abbrev S8x2 : Shape := ⟨2, ![8, 2]⟩
abbrev S8x128x1 : Shape := ⟨3, ![8, 128, 1]⟩
abbrev S8x1x1 : Shape := ⟨3, ![8, 1, 1]⟩
abbrev S1024x1 : Shape := ⟨2, ![1024, 1]⟩
abbrev S1024x128 : Shape := ⟨2, ![1024, 128]⟩
abbrev S1x128x128 : Shape := ⟨3, ![1, 128, 128]⟩
abbrev S128x1 : Shape := ⟨2, ![128, 1]⟩
abbrev S1x1 : Shape := ⟨2, ![1, 1]⟩
abbrev S8x128 : Shape := ⟨2, ![8, 128]⟩
abbrev S128x2 : Shape := ⟨2, ![128, 2]⟩

abbrev nBuf : Space → Nat
  | .hbm => 21
  | .vmem => 22
  | .smem => 0
  | _ => 0

abbrev bufTy : (tb : Table) → Fin (tcTables nBuf tb) → BufTy
  | .hbm, ⟨0, _⟩ => ⟨S64x128x128, .f32⟩
  | .hbm, ⟨1, _⟩ => ⟨S64x128x128, .f32⟩
  | .hbm, ⟨2, _⟩ => ⟨S64x128x128, .f32⟩
  | .hbm, ⟨3, _⟩ => ⟨S64x128x128, .f32⟩
  | .hbm, ⟨4, _⟩ => ⟨S64, .i32⟩
  | .hbm, ⟨5, _⟩ => ⟨S64, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S256x2, .f32⟩
  | .hbm, ⟨13, _⟩ => ⟨S2, .f32⟩
  | .hbm, ⟨14, _⟩ => ⟨S64x1, .i32⟩
  | .hbm, ⟨15, _⟩ => ⟨S64x1, .i32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x2, .f32⟩
  | .hbm, ⟨20, _⟩ => ⟨S64x2, .f32⟩
  | .local _ .vmem, ⟨0, _⟩ => ⟨S8x128x128, .f32⟩
  | .local _ .vmem, ⟨1, _⟩ => ⟨S8x128x128, .f32⟩
  | .local _ .vmem, ⟨2, _⟩ => ⟨S8x128x128, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .f32⟩
  | .local _ .vmem, ⟨6, _⟩ => ⟨S8x128x128, .f32⟩
  | .local _ .vmem, ⟨7, _⟩ => ⟨S8x128x128, .f32⟩
  | .local _ .vmem, ⟨8, _⟩ => ⟨S8x1, .i32⟩
  | .local _ .vmem, ⟨9, _⟩ => ⟨S8x1, .i32⟩
  | .local _ .vmem, ⟨10, _⟩ => ⟨S8x1, .i32⟩
  | .local _ .vmem, ⟨11, _⟩ => ⟨S8x1, .i32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S256x2, .f32⟩
  | .local _ .vmem, ⟨19, _⟩ => ⟨S1x2, .f32⟩
  | .local _ .vmem, ⟨20, _⟩ => ⟨S8x2, .f32⟩
  | .local _ .vmem, ⟨21, _⟩ => ⟨S8x2, .f32⟩
  | _, _ => ⟨S64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x2 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S64_S64x1 : S64.ShapeCasts S64x1
  shapeCasts_S128_S1x128 : S128.ShapeCasts S1x128
  shapeCasts_S2_S1x2 : S2.ShapeCasts S1x2
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S8x128x1_d1_w32 : S8x128x1.Iotas .tc 32 [1]
  iota_S1x128_d1_w32 : S1x128.Iotas .tc 32 [1]
  inb_S8x1_S8x1_0_0 : ∀ a, (![0, 0] : Fin 2 → Nat) a + S8x1.size a ≤ S8x1.size a
  h_S8x1 : 0 < S8x1.numel
  shapeCasts_S8x1_S8x1 : S8x1.ShapeCasts S8x1
  shapeCasts_S8x1_S8x1x1 : S8x1.ShapeCasts S8x1x1
  broadcasts_S8x1x1_S8x128x1 : S8x1x1.Broadcasts S8x128x1
  natLt_1_32 : 1 < 32
  shapeCasts_S8x128x1_S1024x1 : S8x128x1.ShapeCasts S1024x1
  inb_S8x128x128_S8x128x128_0_0_0 : ∀ a, (![0, 0, 0] : Fin 3 → Nat) a + S8x128x128.size a ≤ S8x128x128.size a
  h_S8x128x128 : 0 < S8x128x128.numel
  shapeCasts_S8x128x128_S1024x128 : S8x128x128.ShapeCasts S1024x128
  broadcasts_S1x128_S1024x128 : S1x128.Broadcasts S1024x128
  broadcasts_S1024x1_S1024x128 : S1024x1.Broadcasts S1024x128
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  inb_S8x128x128_S1x128x128_1_0_0 : ∀ a, (![1, 0, 0] : Fin 3 → Nat) a + S1x128x128.size a ≤ S8x128x128.size a
  inb_S8x128x128_S1x128x128_2_0_0 : ∀ a, (![2, 0, 0] : Fin 3 → Nat) a + S1x128x128.size a ≤ S8x128x128.size a
  inb_S8x128x128_S1x128x128_3_0_0 : ∀ a, (![3, 0, 0] : Fin 3 → Nat) a + S1x128x128.size a ≤ S8x128x128.size a
  inb_S8x128x128_S1x128x128_4_0_0 : ∀ a, (![4, 0, 0] : Fin 3 → Nat) a + S1x128x128.size a ≤ S8x128x128.size a
  inb_S8x128x128_S1x128x128_5_0_0 : ∀ a, (![5, 0, 0] : Fin 3 → Nat) a + S1x128x128.size a ≤ S8x128x128.size a
  inb_S8x128x128_S1x128x128_6_0_0 : ∀ a, (![6, 0, 0] : Fin 3 → Nat) a + S1x128x128.size a ≤ S8x128x128.size a
  inb_S8x128x128_S1x128x128_7_0_0 : ∀ a, (![7, 0, 0] : Fin 3 → Nat) a + S1x128x128.size a ≤ S8x128x128.size a
  slices_S1024x128_o0_0_S128x128 : S1024x128.Slices ![0, 0] S128x128
  slices_S1024x128_o128_0_S128x128 : S1024x128.Slices ![128, 0] S128x128
  slices_S1024x128_o256_0_S128x128 : S1024x128.Slices ![256, 0] S128x128
  slices_S1024x128_o384_0_S128x128 : S1024x128.Slices ![384, 0] S128x128
  slices_S1024x128_o512_0_S128x128 : S1024x128.Slices ![512, 0] S128x128
  slices_S1024x128_o640_0_S128x128 : S1024x128.Slices ![640, 0] S128x128
  slices_S1024x128_o768_0_S128x128 : S1024x128.Slices ![768, 0] S128x128
  slices_S1024x128_o896_0_S128x128 : S1024x128.Slices ![896, 0] S128x128
  broadcasts_S1x128_S128x128 : S1x128.Broadcasts S128x128
  slices_S1024x1_o0_0_S128x1 : S1024x1.Slices ![0, 0] S128x1
  broadcasts_S128x1_S128x128 : S128x1.Broadcasts S128x128
  slices_S1024x1_o128_0_S128x1 : S1024x1.Slices ![128, 0] S128x1
  slices_S1024x1_o256_0_S128x1 : S1024x1.Slices ![256, 0] S128x1
  slices_S1024x1_o384_0_S128x1 : S1024x1.Slices ![384, 0] S128x1
  slices_S1024x1_o512_0_S128x1 : S1024x1.Slices ![512, 0] S128x1
  slices_S1024x1_o640_0_S128x1 : S1024x1.Slices ![640, 0] S128x1
  slices_S1024x1_o768_0_S128x1 : S1024x1.Slices ![768, 0] S128x1
  slices_S1024x1_o896_0_S128x1 : S1024x1.Slices ![896, 0] S128x1
  slices_S8x1_o0_0_S1x1 : S8x1.Slices ![0, 0] S1x1
  inpos_S1x1_p0_0 : ∀ a, (![0, 0] : Fin 2 → Nat) a < S1x1.size a
  slices_S8x1_o1_0_S1x1 : S8x1.Slices ![1, 0] S1x1
  slices_S8x1_o2_0_S1x1 : S8x1.Slices ![2, 0] S1x1
  slices_S8x1_o3_0_S1x1 : S8x1.Slices ![3, 0] S1x1
  slices_S8x1_o4_0_S1x1 : S8x1.Slices ![4, 0] S1x1
  slices_S8x1_o5_0_S1x1 : S8x1.Slices ![5, 0] S1x1
  slices_S8x1_o6_0_S1x1 : S8x1.Slices ![6, 0] S1x1
  slices_S8x1_o7_0_S1x1 : S8x1.Slices ![7, 0] S1x1
  concatenates_S1x128_S1x128_S1x128_S1x128_S1x128_S1x128_S1x128_S1x128_S8x128_d0 : Shape.Concatenates [S1x128, S1x128, S1x128, S1x128, S1x128, S1x128, S1x128, S1x128] S8x128 0
  broadcasts_S8x1_S8x128 : S8x1.Broadcasts S8x128
  broadcasts_S1x128_S8x128 : S1x128.Broadcasts S8x128
  inb_S256x2_S128x2_0_0 : ∀ a, (![0, 0] : Fin 2 → Nat) a + S128x2.size a ≤ S256x2.size a
  h_S128x2 : 0 < S128x2.numel
  inb_S256x2_S128x2_128_0 : ∀ a, (![128, 0] : Fin 2 → Nat) a + S128x2.size a ≤ S256x2.size a
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8x2 : S1x2.Broadcasts S8x2
  inb_S8x2_S8x2_0_0 : ∀ a, (![0, 0] : Fin 2 → Nat) a + S8x2.size a ≤ S8x2.size a
  h_S8x2 : 0 < S8x2.numel
  dot_S1024x128_S128x128_S1024x128_1_0_0_1_n_n_wf : DotDims.WF S1024x128 S128x128 S1024x128 [1] [0] [0] [1] [] []
  dot_S128x128_S128x128_S128x128_1_0_0_1_n_n_wf : DotDims.WF S128x128 S128x128 S128x128 [1] [0] [0] [1] [] []
  dot_S1x128_S128x128_S1x128_1_0_0_1_n_n_wf : DotDims.WF S1x128 S128x128 S1x128 [1] [0] [0] [1] [] []
  dot_S8x128_S128x128_S8x128_1_0_0_1_n_n_wf : DotDims.WF S8x128 S128x128 S8x128 [1] [0] [0] [1] [] []
  dot_S8x128_S128x2_S8x2_1_0_0_1_n_n_wf : DotDims.WF S8x128 S128x2 S8x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x128.size a ≤ S64x128x128.size a
  hwx0_0 : ∀ i : grid0.Coords, EltTy.bits .f32 = 32 ∨ (Rect.block (s := S64x128x128) S8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x128.size a ≤ S64x128x128.size a
  hwx0_1 : ∀ i : grid0.Coords, EltTy.bits .f32 = 32 ∨ (Rect.block (s := S64x128x128) S8x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x128.size a ≤ S64x128x128.size a
  hwx0_2 : ∀ i : grid0.Coords, EltTy.bits .f32 = 32 ∨ (Rect.block (s := S64x128x128) S8x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x128.size a ≤ S64x128x128.size a
  hwx0_3 : ∀ i : grid0.Coords, EltTy.bits .f32 = 32 ∨ (Rect.block (s := S64x128x128) S8x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S64x1.size a
  hwx0_4 : ∀ i : grid0.Coords, EltTy.bits .i32 = 32 ∨ (Rect.block (s := S64x1) S8x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S64x1.size a
  hwx0_5 : ∀ i : grid0.Coords, EltTy.bits .i32 = 32 ∨ (Rect.block (s := S64x1) S8x1.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x2.size a ≤ S256x2.size a
  hwx0_12 : ∀ i : grid0.Coords, EltTy.bits .f32 = 32 ∨ (Rect.block (s := S256x2) S256x2.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x2.size a ≤ S1x2.size a
  hwx0_13 : ∀ i : grid0.Coords, EltTy.bits .f32 = 32 ∨ (Rect.block (s := S1x2) S1x2.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8x2.size a ≤ S64x2.size a
  hwx0_14 : ∀ i : grid0.Coords, EltTy.bits .f32 = 32 ∨ (Rect.block (s := S64x2) S8x2.size (cc0_transform_14 i) (hinb0_14 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S8x128_S128x128_S8x128_1_0_0_1_n_n : DotDims S8x128 S128x128 S8x128 where
  lhsContracting := [1]
  rhsContracting := [0]
  lhsNonContracting := [0]
  rhsNonContracting := [1]
  lhsBatch := []
  rhsBatch := []
  wf := dot_S8x128_S128x128_S8x128_1_0_0_1_n_n_wf
def dot_S8x128_S128x2_S8x2_1_0_0_1_n_n : DotDims S8x128 S128x2 S8x2 where
  lhsContracting := [1]
  rhsContracting := [0]
  lhsNonContracting := [0]
  rhsNonContracting := [1]
  lhsBatch := []
  rhsBatch := []
  wf := dot_S8x128_S128x2_S8x2_1_0_0_1_n_n_wf

abbrev win0_0 : Pipeline.Window sig grid0 :=
  Pipeline.Window.ofSpec (Memref.whole main_arg0) S8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256x2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S1x2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S8x2.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S64x128x128 : Shape := ⟨3, ![64, 128, 128]⟩
abbrev S64 : Shape := ⟨1, ![64]⟩
abbrev S128x128 : Shape := ⟨2, ![128, 128]⟩
abbrev S128 : Shape := ⟨1, ![128]⟩
abbrev S256x2 : Shape := ⟨2, ![256, 2]⟩
abbrev S2 : Shape := ⟨1, ![2]⟩
abbrev S1x128 : Shape := ⟨2, ![1, 128]⟩
abbrev S64x1 : Shape := ⟨2, ![64, 1]⟩
abbrev S64x128 : Shape := ⟨2, ![64, 128]⟩
abbrev S64x128x1 : Shape := ⟨3, ![64, 128, 1]⟩
abbrev S64x1x128 : Shape := ⟨3, ![64, 1, 128]⟩
abbrev S1x1x128 : Shape := ⟨3, ![1, 1, 128]⟩
abbrev S_ : Shape := ⟨0, ![]⟩
abbrev S64x256 : Shape := ⟨2, ![64, 256]⟩
abbrev S64x2 : Shape := ⟨2, ![64, 2]⟩
abbrev S1x2 : Shape := ⟨2, ![1, 2]⟩

abbrev nBuf : Space → Nat
  | .hbm => 127
  | .vmem => 0
  | .smem => 0
  | _ => 0

abbrev bufTy : (tb : Table) → Fin (tcTables nBuf tb) → BufTy
  | .hbm, ⟨0, _⟩ => ⟨S64x128x128, .f32⟩
  | .hbm, ⟨1, _⟩ => ⟨S64x128x128, .f32⟩
  | .hbm, ⟨2, _⟩ => ⟨S64x128x128, .f32⟩
  | .hbm, ⟨3, _⟩ => ⟨S64x128x128, .f32⟩
  | .hbm, ⟨4, _⟩ => ⟨S64, .i32⟩
  | .hbm, ⟨5, _⟩ => ⟨S64, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S256x2, .f32⟩
  | .hbm, ⟨13, _⟩ => ⟨S2, .f32⟩
  | .hbm, ⟨14, _⟩ => ⟨S128, .i32⟩
  | .hbm, ⟨15, _⟩ => ⟨S1x128, .i32⟩
  | .hbm, ⟨16, _⟩ => ⟨S64x1, .i32⟩
  | .hbm, ⟨17, _⟩ => ⟨S64x128, .i32⟩
  | .hbm, ⟨18, _⟩ => ⟨S64x128, .i32⟩
  | .hbm, ⟨19, _⟩ => ⟨S64x128, .i1⟩
  | .hbm, ⟨20, _⟩ => ⟨S64x128, .f32⟩
  | .hbm, ⟨21, _⟩ => ⟨S64x128x1, .f32⟩
  | .hbm, ⟨22, _⟩ => ⟨S64x128x128, .f32⟩
  | .hbm, ⟨23, _⟩ => ⟨S64x128x128, .f32⟩
  | .hbm, ⟨24, _⟩ => ⟨S64x128x1, .f32⟩
  | .hbm, ⟨25, _⟩ => ⟨S64x128x128, .f32⟩
  | .hbm, ⟨26, _⟩ => ⟨S64x128x128, .f32⟩
  | .hbm, ⟨27, _⟩ => ⟨S64x1x128, .f32⟩
  | .hbm, ⟨28, _⟩ => ⟨S64x128x128, .f32⟩
  | .hbm, ⟨29, _⟩ => ⟨S64x128x128, .f32⟩
  | .hbm, ⟨30, _⟩ => ⟨S64x128x128, .f32⟩
  | .hbm, ⟨31, _⟩ => ⟨S1x1x128, .f32⟩
  | .hbm, ⟨32, _⟩ => ⟨S64x128x128, .f32⟩
  | .hbm, ⟨33, _⟩ => ⟨S64x128x128, .f32⟩
  | .hbm, ⟨34, _⟩ => ⟨S64x128x128, .f32⟩
  | .hbm, ⟨35, _⟩ => ⟨S_, .f32⟩
  | .hbm, ⟨36, _⟩ => ⟨S64x128x128, .f32⟩
  | .hbm, ⟨37, _⟩ => ⟨S64x128x128, .f32⟩
  | .hbm, ⟨38, _⟩ => ⟨S64x128x1, .f32⟩
  | .hbm, ⟨39, _⟩ => ⟨S64x128x128, .f32⟩
  | .hbm, ⟨40, _⟩ => ⟨S64x128x128, .f32⟩
  | .hbm, ⟨41, _⟩ => ⟨S64x128x128, .f32⟩
  | .hbm, ⟨42, _⟩ => ⟨S1x1x128, .f32⟩
  | .hbm, ⟨43, _⟩ => ⟨S64x128x128, .f32⟩
  | .hbm, ⟨44, _⟩ => ⟨S64x128x128, .f32⟩
  | .hbm, ⟨45, _⟩ => ⟨S64x128x128, .f32⟩
  | .hbm, ⟨46, _⟩ => ⟨S_, .f32⟩
  | .hbm, ⟨47, _⟩ => ⟨S64x128x128, .f32⟩
  | .hbm, ⟨48, _⟩ => ⟨S64x128x128, .f32⟩
  | .hbm, ⟨49, _⟩ => ⟨S64x128x1, .f32⟩
  | .hbm, ⟨50, _⟩ => ⟨S64x128x128, .f32⟩
  | .hbm, ⟨51, _⟩ => ⟨S64x128x128, .f32⟩
  | .hbm, ⟨52, _⟩ => ⟨S64x128x128, .f32⟩
  | .hbm, ⟨53, _⟩ => ⟨S1x1x128, .f32⟩
  | .hbm, ⟨54, _⟩ => ⟨S64x128x128, .f32⟩
  | .hbm, ⟨55, _⟩ => ⟨S64x128x128, .f32⟩
  | .hbm, ⟨56, _⟩ => ⟨S64x128x1, .f32⟩
  | .hbm, ⟨57, _⟩ => ⟨S64x128x128, .f32⟩
  | .hbm, ⟨58, _⟩ => ⟨S64x128x128, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S64x1, .f32⟩
  | .hbm, ⟨64, _⟩ => ⟨S_, .f32⟩
  | .hbm, ⟨65, _⟩ => ⟨S64x128, .f32⟩
  | .hbm, ⟨66, _⟩ => ⟨S64x128, .f32⟩
  | .hbm, ⟨67, _⟩ => ⟨S64x128, .f32⟩
  | .hbm, ⟨68, _⟩ => ⟨S128, .i32⟩
  | .hbm, ⟨69, _⟩ => ⟨S1x128, .i32⟩
  | .hbm, ⟨70, _⟩ => ⟨S64x1, .i32⟩
  | .hbm, ⟨71, _⟩ => ⟨S64x128, .i32⟩
  | .hbm, ⟨72, _⟩ => ⟨S64x128, .i32⟩
  | .hbm, ⟨73, _⟩ => ⟨S64x128, .i1⟩
  | .hbm, ⟨74, _⟩ => ⟨S64x128, .f32⟩
  | .hbm, ⟨75, _⟩ => ⟨S64x128x1, .f32⟩
  | .hbm, ⟨76, _⟩ => ⟨S64x128x128, .f32⟩
  | .hbm, ⟨77, _⟩ => ⟨S64x128x128, .f32⟩
  | .hbm, ⟨78, _⟩ => ⟨S64x128x1, .f32⟩
  | .hbm, ⟨79, _⟩ => ⟨S64x128x128, .f32⟩
  | .hbm, ⟨80, _⟩ => ⟨S64x128x128, .f32⟩
  | .hbm, ⟨81, _⟩ => ⟨S64x1x128, .f32⟩
  | .hbm, ⟨82, _⟩ => ⟨S64x128x128, .f32⟩
  | .hbm, ⟨83, _⟩ => ⟨S64x128x128, .f32⟩
  | .hbm, ⟨84, _⟩ => ⟨S64x128x128, .f32⟩
  | .hbm, ⟨85, _⟩ => ⟨S1x1x128, .f32⟩
  | .hbm, ⟨86, _⟩ => ⟨S64x128x128, .f32⟩
  | .hbm, ⟨87, _⟩ => ⟨S64x128x128, .f32⟩
  | .hbm, ⟨88, _⟩ => ⟨S64x128x128, .f32⟩
  | .hbm, ⟨89, _⟩ => ⟨S_, .f32⟩
  | .hbm, ⟨90, _⟩ => ⟨S64x128x128, .f32⟩
  | .hbm, ⟨91, _⟩ => ⟨S64x128x128, .f32⟩
  | .hbm, ⟨92, _⟩ => ⟨S64x128x1, .f32⟩
  | .hbm, ⟨93, _⟩ => ⟨S64x128x128, .f32⟩
  | .hbm, ⟨94, _⟩ => ⟨S64x128x128, .f32⟩
  | .hbm, ⟨95, _⟩ => ⟨S64x128x128, .f32⟩
  | .hbm, ⟨96, _⟩ => ⟨S1x1x128, .f32⟩
  | .hbm, ⟨97, _⟩ => ⟨S64x128x128, .f32⟩
  | .hbm, ⟨98, _⟩ => ⟨S64x128x128, .f32⟩
  | .hbm, ⟨99, _⟩ => ⟨S64x128x128, .f32⟩
  | .hbm, ⟨100, _⟩ => ⟨S_, .f32⟩
  | .hbm, ⟨101, _⟩ => ⟨S64x128x128, .f32⟩
  | .hbm, ⟨102, _⟩ => ⟨S64x128x128, .f32⟩
  | .hbm, ⟨103, _⟩ => ⟨S64x128x1, .f32⟩
  | .hbm, ⟨104, _⟩ => ⟨S64x128x128, .f32⟩
  | .hbm, ⟨105, _⟩ => ⟨S64x128x128, .f32⟩
  | .hbm, ⟨106, _⟩ => ⟨S64x128x128, .f32⟩
  | .hbm, ⟨107, _⟩ => ⟨S1x1x128, .f32⟩
  | .hbm, ⟨108, _⟩ => ⟨S64x128x128, .f32⟩
  | .hbm, ⟨109, _⟩ => ⟨S64x128x128, .f32⟩
  | .hbm, ⟨110, _⟩ => ⟨S64x128x1, .f32⟩
  | .hbm, ⟨111, _⟩ => ⟨S64x128x128, .f32⟩
  | .hbm, ⟨112, _⟩ => ⟨S64x128x128, .f32⟩
  | .hbm, ⟨113, _⟩ => ⟨S64, .f32⟩
  | .hbm, ⟨114, _⟩ => ⟨S_, .f32⟩
  | .hbm, ⟨115, _⟩ => ⟨S64, .f32⟩
  | .hbm, ⟨116, _⟩ => ⟨S64, .f32⟩
  | .hbm, ⟨117, _⟩ => ⟨S64x1, .f32⟩
  | .hbm, ⟨118, _⟩ => ⟨S_, .f32⟩
  | .hbm, ⟨119, _⟩ => ⟨S64x128, .f32⟩
  | .hbm, ⟨120, _⟩ => ⟨S64x128, .f32⟩
  | .hbm, ⟨121, _⟩ => ⟨S64x128, .f32⟩
  | .hbm, ⟨122, _⟩ => ⟨S64x256, .f32⟩
  | .hbm, ⟨123, _⟩ => ⟨S64x2, .f32⟩
  | .hbm, ⟨124, _⟩ => ⟨S1x2, .f32⟩
  | .hbm, ⟨125, _⟩ => ⟨S64x2, .f32⟩
  | .hbm, ⟨126, _⟩ => ⟨S64x2, .f32⟩
  | _, _ => ⟨S64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call2_cst : Ref sig .tc := ⟨.hbm, 89, rfl⟩
abbrev main_call2_v0 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call3_cst : Ref sig .tc := ⟨.hbm, 100, rfl⟩
abbrev main_call3_v0 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_1 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_2 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S64_S64x1_0 : S64.BroadcastsInDim S64x1 (![0] : Fin 1 → Fin S64x1.rank)
  bcast_S1x128_S64x128_0_1 : S1x128.BroadcastsInDim S64x128 (![0, 1] : Fin 2 → Fin S64x128.rank)
  bcast_S64x1_S64x128_0_1 : S64x1.BroadcastsInDim S64x128 (![0, 1] : Fin 2 → Fin S64x128.rank)
  bcast_S64x128_S64x128x1_0_1 : S64x128.BroadcastsInDim S64x128x1 (![0, 1] : Fin 2 → Fin S64x128x1.rank)
  bcast_S64x128x1_S64x128x128_0_1_2 : S64x128x1.BroadcastsInDim S64x128x128 (![0, 1, 2] : Fin 3 → Fin S64x128x128.rank)
  bcast_S64x128_S64x1x128_0_2 : S64x128.BroadcastsInDim S64x1x128 (![0, 2] : Fin 2 → Fin S64x1x128.rank)
  bcast_S64x1x128_S64x128x128_0_1_2 : S64x1x128.BroadcastsInDim S64x128x128 (![0, 1, 2] : Fin 3 → Fin S64x128x128.rank)
  bcast_S128_S1x1x128_2 : S128.BroadcastsInDim S1x1x128 (![2] : Fin 1 → Fin S1x1x128.rank)
  bcast_S1x1x128_S64x128x128_0_1_2 : S1x1x128.BroadcastsInDim S64x128x128 (![0, 1, 2] : Fin 3 → Fin S64x128x128.rank)
  bcast_S_S64x128x128 : S_.BroadcastsInDim S64x128x128 (![] : Fin 0 → Fin S64x128x128.rank)
  bcast_S_S64 : S_.BroadcastsInDim S64 (![] : Fin 0 → Fin S64.rank)
  reducesTo_S64x128x128_S64x128_d1 : S64x128x128.ReducesTo [1] S64x128
  h_S_ : 0 < S_.numel
  concatenates_S64x128_S64x128_S64x256_d1 : Shape.Concatenates [S64x128, S64x128] S64x256 1
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S64x128x128_S128x128_S64x128x128_2_0_01_1_n_n_wf : DotDims.WF S64x128x128 S128x128 S64x128x128 [2] [0] [0, 1] [1] [] []
  dot_S64x128x128_S64x128x128_S64x128x128_2_1_1_2_0_0_wf : DotDims.WF S64x128x128 S64x128x128 S64x128x128 [2] [1] [1] [2] [0] [0]
  dot_S64x256_S256x2_S64x2_1_0_0_1_n_n_wf : DotDims.WF S64x256 S256x2 S64x2 [1] [0] [0] [1] [] []

variable [Facts₀]

def dot_S64x128x128_S128x128_S64x128x128_2_0_01_1_n_n : DotDims S64x128x128 S128x128 S64x128x128 where
  lhsContracting := [2]
  rhsContracting := [0]
  lhsNonContracting := [0, 1]
  rhsNonContracting := [1]
  lhsBatch := []
  rhsBatch := []
  wf := dot_S64x128x128_S128x128_S64x128x128_2_0_01_1_n_n_wf
def dot_S64x128x128_S64x128x128_S64x128x128_2_1_1_2_0_0 : DotDims S64x128x128 S64x128x128 S64x128x128 where
  lhsContracting := [2]
  rhsContracting := [1]
  lhsNonContracting := [1]
  rhsNonContracting := [2]
  lhsBatch := [0]
  rhsBatch := [0]
  wf := dot_S64x128x128_S64x128x128_S64x128x128_2_1_1_2_0_0_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

class Facts : Prop extends Facts₀ where

variable [Facts]
-- ==== Proof.Spec.lean ====
/-
  The mathematics of the graph-pair network, as index-by-index functions on the extended reals.

  One graph has 128 node slots, of which the first `s` hold nodes; `mask s i` is 1 on those slots and 0 on the rest.
  Two graph-convolution layers `H ↦ relu (A · (H · W + b))` are followed by an aggregator `H · Wa + ba` averaged over the
  graph's nodes (the sum over the masked slots, divided by `max s 1`).  Two arrangements of the same network are written
  out here:

  * the ROW-MASKED arrangement (`kH … kE`): the adjacency is used as it is, the activations entering each aggregation
    are multiplied by the row mask, and the masked sum over nodes is taken BEFORE the aggregator's matrix, the bias
    entering as `s · ba`;
  * the ADJACENCY-MASKED arrangement (`rX … rE`): the features and the adjacency (rows and columns) are masked first,
    every layer's output is masked again, the aggregator is applied per node, masked, and then summed.

  They are the same function when `0 ≤ s ≤ 128` (the module `SpecLaw`): a mask entry is 0 or 1, `0 · x = 0` and
  `1 · x = x` for every extended real `x`, so a masked slot contributes nothing on either side, and the number of unmasked
  slots is `s` exactly when `s` is a node count of a graph laid out in 128 slots.

  The pair's two embeddings are joined and sent through one last dense layer (`kOut`: the two halves of the weight
  matrix applied separately and added; `rOut`: the joined 256-vector against the whole matrix).
-/
import Idealize.ShloMosaic.PureOps.Ideal
import Idealize.ShloMosaic.Lib.ValueIdx

noncomputable section

namespace Cert.Gnn

open Idealize.ShloMosaic

/-- A matrix of extended reals, entry `(i, j)`. -/
abbrev Mat (a b : Nat) := Fin a → Fin b → EReal
/-- A vector of extended reals. -/
abbrev Row (a : Nat) := Fin a → EReal

/-- The node mask of a graph with `s` nodes in 128 slots: 1 on slot `i < s`, 0 elsewhere. -/
def mask (s : ℤ) (i : Fin 128) : EReal := if (i.val : ℤ) < s then 1 else 0

/-- The node count as an extended real. -/
def sz (s : ℤ) : EReal := ((s : ℝ) : EReal)

section Graph

variable (W1 : Mat 128 128) (b1 : Row 128) (W2 : Mat 128 128) (b2 : Row 128) (Wa : Mat 128 128) (ba : Row 128)
variable (f a : Mat 128 128) (s : ℤ)

/-! ### Row-masked arrangement -/

/-- First dense layer, rows masked: `(f · W1 + b1) ⊙ mask`. -/
def kH (j d : Fin 128) : EReal := (∑ k, f j k * W1 k d + b1 d) * mask s j
/-- First aggregation over the unmasked adjacency, then relu. -/
def kT1 (i d : Fin 128) : EReal := max (∑ j, a i j * kH W1 b1 f s j d) 0
/-- Second dense layer, rows masked. -/
def kU (i d : Fin 128) : EReal := (∑ k, kT1 W1 b1 f a s i k * W2 k d + b2 d) * mask s i
/-- Second aggregation, then relu. -/
def kT2 (i d : Fin 128) : EReal := max (∑ j, a i j * kU W1 b1 W2 b2 f a s j d) 0
/-- The masked sum over nodes, taken before the aggregator's matrix. -/
def kV (d : Fin 128) : EReal := ∑ i, mask s i * kT2 W1 b1 W2 b2 f a s i d
/-- The graph's embedding: `(v · Wa + s · ba) / max s 1`. -/
def kE (d : Fin 128) : EReal :=
  Ideal.div (∑ k, kV W1 b1 W2 b2 f a s k * Wa k d + sz s * ba d) (max (sz s) 1)

/-! ### Adjacency-masked arrangement -/

/-- Masked features. -/
def rX (n k : Fin 128) : EReal := f n k * mask s n
/-- Adjacency masked on rows and columns. -/
def rA (i j : Fin 128) : EReal := a i j * mask s i * mask s j
/-- First dense layer on the masked features. -/
def rH0 (n d : Fin 128) : EReal := ∑ k, rX f s n k * W1 k d + b1 d
/-- First layer's output: aggregate, relu, mask. -/
def rH1 (i d : Fin 128) : EReal := max (∑ j, rA a s i j * rH0 W1 b1 f s j d) 0 * mask s i
/-- Second dense layer. -/
def rH2 (i d : Fin 128) : EReal := ∑ k, rH1 W1 b1 f a s i k * W2 k d + b2 d
/-- Second layer's output: aggregate, relu, mask. -/
def rH3 (i d : Fin 128) : EReal := max (∑ j, rA a s i j * rH2 W1 b1 W2 b2 f a s j d) 0 * mask s i
/-- The aggregator per node, masked. -/
def rG (i d : Fin 128) : EReal := (∑ k, rH3 W1 b1 W2 b2 f a s i k * Wa k d + ba d) * mask s i
/-- The graph's embedding: the mean of the masked per-node aggregates. -/
def rE (d : Fin 128) : EReal := Ideal.div (0 + ∑ i, rG W1 b1 W2 b2 Wa ba f a s i d) (max (sz s) 1)

end Graph

/-! ### The last dense layer on the joined pair -/

/-- Row `k` of the upper half of a 256-row matrix. -/
def lo (k : Fin 128) : Fin 256 := ⟨k.val, by omega⟩
/-- Row `k` of the lower half. -/
def hi (k : Fin 128) : Fin 256 := ⟨128 + k.val, by omega⟩

/-- The two halves of the weight matrix applied to the two embeddings separately. -/
def kOut (e1 e2 : Row 128) (Wc : Mat 256 2) (bc : Row 2) (c : Fin 2) : EReal :=
  (∑ k, e1 k * Wc (lo k) c + ∑ k, e2 k * Wc (hi k) c) + bc c

/-- The two embeddings joined into one 256-vector. -/
def join (e1 e2 : Row 128) (k : Fin 256) : EReal :=
  if h : k.val < 128 then e1 ⟨k.val, h⟩ else e2 ⟨k.val - 128, by omega⟩

/-- The joined vector against the whole weight matrix. -/
def rOut (e1 e2 : Row 128) (Wc : Mat 256 2) (bc : Row 2) (c : Fin 2) : EReal :=
  ∑ k, join e1 e2 k * Wc k c + bc c

/-! ### The whole batch, over the programs' array types -/

abbrev S64x128x128 : Shape := ⟨3, ![64, 128, 128]⟩
abbrev S64 : Shape := ⟨1, ![64]⟩
abbrev S128x128 : Shape := ⟨2, ![128, 128]⟩
abbrev S128 : Shape := ⟨1, ![128]⟩
abbrev S256x2 : Shape := ⟨2, ![256, 2]⟩
abbrev S2 : Shape := ⟨1, ![2]⟩
abbrev S64x2 : Shape := ⟨2, ![64, 2]⟩

open ValueIdx in
/-- Graph `b` of a batch of matrices. -/
def slab (x : S64x128x128.Idx → EReal) (b : Fin 64) : Mat 128 128 := fun i j => x (ix3 b i j)
open ValueIdx in
/-- A weight matrix as a function of row and column. -/
def mat2 {r c : Nat} (w : (⟨2, ![r, c]⟩ : Shape).Idx → EReal) : Mat r c := fun i j => w (ix2 i j)
open ValueIdx in
/-- A bias vector as a function of its index. -/
def vec1 {n : Nat} (v : (⟨1, ![n]⟩ : Shape).Idx → EReal) : Row n := fun i => v (ix1 i)
open ValueIdx in
/-- Graph `b`'s node count. -/
def cnt (s : S64.Idx → BitVec 32) (b : Fin 64) : ℤ := (s (ix1 b)).toInt

/-- The network's output for the whole batch, row-masked arrangement: entry `(b, c)` from pair `b`'s two graphs. -/
def G (x0 x1 x2 x3 : S64x128x128.Idx → EReal) (s1 s2 : S64.Idx → BitVec 32)
    (W1 : S128x128.Idx → EReal) (b1 : S128.Idx → EReal) (W2 : S128x128.Idx → EReal) (b2 : S128.Idx → EReal)
    (Wa : S128x128.Idx → EReal) (ba : S128.Idx → EReal) (Wc : S256x2.Idx → EReal) (bc : S2.Idx → EReal) :
    S64x2.Idx → EReal := fun i =>
  kOut (kE (mat2 W1) (vec1 b1) (mat2 W2) (vec1 b2) (mat2 Wa) (vec1 ba) (slab x0 (i 0)) (slab x1 (i 0)) (cnt s1 (i 0)))
       (kE (mat2 W1) (vec1 b1) (mat2 W2) (vec1 b2) (mat2 Wa) (vec1 ba) (slab x2 (i 0)) (slab x3 (i 0)) (cnt s2 (i 0)))
       (mat2 Wc) (vec1 bc) (i 1)

/-- The same, adjacency-masked arrangement. -/
def GR (x0 x1 x2 x3 : S64x128x128.Idx → EReal) (s1 s2 : S64.Idx → BitVec 32)
    (W1 : S128x128.Idx → EReal) (b1 : S128.Idx → EReal) (W2 : S128x128.Idx → EReal) (b2 : S128.Idx → EReal)
    (Wa : S128x128.Idx → EReal) (ba : S128.Idx → EReal) (Wc : S256x2.Idx → EReal) (bc : S2.Idx → EReal) :
    S64x2.Idx → EReal := fun i =>
  rOut (rE (mat2 W1) (vec1 b1) (mat2 W2) (vec1 b2) (mat2 Wa) (vec1 ba) (slab x0 (i 0)) (slab x1 (i 0)) (cnt s1 (i 0)))
       (rE (mat2 W1) (vec1 b1) (mat2 W2) (vec1 b2) (mat2 Wa) (vec1 ba) (slab x2 (i 0)) (slab x3 (i 0)) (cnt s2 (i 0)))
       (mat2 Wc) (vec1 bc) (i 1)

end Cert.Gnn

end
-- ==== Proof.LibMatmulNN.lean ====
/-
  A matrix product whose left operand is contracted on its SECOND axis and whose right operand on its FIRST (an M×K
  array times a K×N array, the plain row-by-column product), accumulated into zero, read at one entry of the result on
  the extended reals: entry (i, j) is the sum over k of left (i, k) · right (k, j).  Every extent and both operand
  formats are arbitrary; the dimension record is any record with that contraction, its structural facts passed as
  hypotheses (four coordinate facts of its index maps, the contraction's rank and size), each closed by rfl or by
  unfolding at a printed record.
-/
import Idealize.ShloMosaic.PureOps.Ideal.Laws
import Idealize.ShloMosaic.Lib.ValueIdx

noncomputable section

open scoped BigOperators

namespace Cert.MatmulNN

open Idealize.ShloMosaic Idealize.ShloMosaic.ValueIdx

/-- The left operand contracted on its SECOND axis and the right on its FIRST, into a zero accumulator:
    out (i, j) = Σ k, A (i, k) · B (k, j). -/
theorem matmul_nn_apply {M K N : ℕ} {φ₁ φ₂ : FTy} (d : DotDims ⟨2, ![M, K]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (A : FVec Ideal ⟨2, ![M, K]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 i k) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.MatmulNN

end
-- ==== Proof.LibAxes.lean ====
/-
  Layout operations of rank-3 tiles read at an index given by coordinates.

  A tile `[a, b, c]` whose two leading axes are merged into rows, `[a * b, c]`, keeps the row-major position:
  row `ρ = i * b + j` of the merged array is the fibre `(i, j, ·)` of the tile, and back. A unit axis put in the
  middle of a matrix, `[a, c] → [a, 1, c]`, or two in front of a vector, `[c] → [1, 1, c]`, moves no element.
  A broadcast to `[a, b, c]` from `[a, 1, c]`, `[1, b, c]` or `[1, 1, c]` reads the operand at the coordinates of
  its non-unit axes and at `0` on its unit axes.

  Each lemma states one such operation at an index written `ixN …`, for any element type and any sizes, so that it
  applies to a printed operation by unification; the merged row is a variable `ρ` with its value as a hypothesis.
-/
import Idealize.ShloMosaic.Lib.Pipeline.Value
import Idealize.ShloMosaic.Lib.ValueIdx

namespace Cert.LibAxes

open Idealize.ShloMosaic Idealize.ShloMosaic.ValueIdx

variable {α : Type}

/-! ## Unit axes added by a shape cast -/

/-- An `[a, c]` array cast to `[a, 1, c]` reads, at `(i, u, k)`, the operand at `(i, k)`: the unit axis in the middle
    contributes nothing to the row-major position. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    omega)

/-! ## Two leading axes merged into rows, and split again -/

/-- An `[a, b, c]` tile cast to `[n, c]` (`n = a * b` rows) reads, at `(ρ, k)` with `ρ = i * b + j`, the tile at
    `(i, j, k)`: both positions are `(i * b + j) * c + k`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (ρ : Fin n)
    (hρ : ρ.val = i.val * b + j.val) :
    shapeCast ⟨2, ![n, c]⟩ x h (ix2 ρ k) = x (ix3 i j k) :=
  shapeCast_apply x h _ _ (by
    rw [Shape.rowMajor_val_three, Shape.rowMajor_val_two]
    show (i.val * b + j.val) * c + k.val = ρ.val * c + k.val
    rw [hρ])

/-- An `[n, c]` array of `n = a * b` rows cast to `[a, b, c]` reads, at `(i, j, k)`, row `ρ = i * b + j` at `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (ρ : Fin n)
    (hρ : ρ.val = i.val * b + j.val) :
    shapeCast ⟨3, ![a, b, c]⟩ x h (ix3 i j k) = x (ix2 ρ k) :=
  shapeCast_apply x h _ _ (by
    rw [Shape.rowMajor_val_three, Shape.rowMajor_val_two]
    show ρ.val * c + k.val = (i.val * b + j.val) * c + k.val
    rw [hρ])

/-! ## Broadcasts to a rank-3 tile -/

/-- An `[a, 1, c]` array broadcast to `[a, b, c]` reads, at `(i, j, k)`, the operand at `(i, 0, k)`: every `j` sees
    the same row. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees
    the same matrix. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`: one row for the
    whole tile. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibAxes
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.KerStagesMM.lean ====
/-
  The kernel's matrix-product stages read at an index, each in the form "if the operands read as these functions, the
  stage reads as that function": a product into a zero accumulator is the sum over the contracted index, a change of
  float format is the identity on the extended reals, a bias row is repeated down the rows, a mask column across them.
-/
import proofs.«138933_g17179869476_cont_week2b_1059_28_alg».proof.Proof.Gen.KernelIdeal.Frame
import proofs.«138933_g17179869476_cont_week2b_1059_28_alg».proof.Proof.Spec
import proofs.«138933_g17179869476_cont_week2b_1059_28_alg».proof.Proof.LibMatmulNN
import proofs.«138933_g17179869476_cont_week2b_1059_28_alg».proof.Proof.LibAxes
import proofs.«138933_g17179869476_cont_week2b_1059_28_alg».proof.Proof.LibRowOps
import Idealize.ShloMosaic.Lib.ValueIdx
import Idealize.ShloMosaic.Lib.Pipeline.Value
import Idealize.ShloMosaic.PureOps.Ideal.Laws

noncomputable section

namespace Cert.Gnn.Ker

open Cert.KernelIdeal Cert.KernelIdeal.Gen Idealize.ShloMosaic Idealize.ShloMosaic.ValueIdx
open Cert.Gnn (mask sz)

/-! ### The two constants the stages spell -/

/-- The single-precision pattern of 1.0 denotes the extended real 1. -/
theorem ofBits_one_f32 : Ideal.ofBits .f32 1065353216#32 = (1 : EReal) := by
  simp [Ideal.ofBits, Ideal.ieee, -EReal.coe_mul]; norm_num

/-- The same fact, for the pattern read through the float interface. -/
theorem floatOps_ofBits_one_f32 : FloatOps.ofBits (F := Ideal) .f32 1065353216#32 = (1 : EReal) := ofBits_one_f32

/-- The half-width pattern of +0.0 denotes the extended real 0. -/
theorem ofBits_zero_bf16 : Ideal.ofBits .bf16 0#16 = (0 : EReal) := by
  simp [Ideal.ofBits, Ideal.ieee]

/-- The same fact, for the pattern read through the float interface. -/
theorem floatOps_ofBits_zero_bf16 : FloatOps.ofBits (F := Ideal) .bf16 0#16 = (0 : EReal) := ofBits_zero_bf16

/-! ### A row repeated down the rows -/

/-- A one-row array repeated to a rows reads, at (i, k), the row at k. -/
theorem broadcastTo_1c_ac_apply {α : Type} {a c : ℕ} (v : (⟨2, ![1, c]⟩ : Shape).Idx → α)
    (h : (⟨2, ![1, c]⟩ : Shape).Broadcasts ⟨2, ![a, c]⟩) (i : Fin a) (k : Fin c) :
    broadcastTo ⟨2, ![a, c]⟩ v h (ix2 i k) = v (ix2 (0 : Fin 1) k) := by
  refine broadcastTo_apply v h (ix2 i k) (ix2 (0 : Fin 1) k) fun ax => ?_
  match ax with
  | ⟨0, _⟩ => rfl
  | ⟨1, _⟩ =>
    show k.val = if c = 1 then 0 else k.val
    split
    · have := k.isLt; omega
    · rfl

/-! ### The five products, each into a zero accumulator: entry (i, j) is the sum over k of left (i, k) · right (k, j) -/

/-- A block's 1024 rows against a 128×128 matrix. -/
theorem mm1024_apply {φ₁ φ₂ : FTy} (A : FVec Ideal S1024x128 φ₁) (B : FVec Ideal S128x128 φ₂) (i : Fin 1024) (j : Fin 128) :
    matmul dot_S1024x128_S128x128_S1024x128_1_0_0_1_n_n none A B (constant S1024x128 .f32 0#32) (ix2 i j) = ∑ k : Fin 128, A (ix2 i k) * B (ix2 k j) :=
  Cert.MatmulNN.matmul_nn_apply (M := 1024) (K := 128) (N := 128) dot_S1024x128_S128x128_S1024x128_1_0_0_1_n_n none rfl rfl
    (fun j q => by
      unfold DotDims.lhsIdx
      rw [dif_neg (show ¬(0 : Fin S1024x128.rank) ∈ dot_S1024x128_S128x128_S1024x128_1_0_0_1_n_n.lhsBatch by decide),
        dif_pos (show (0 : Fin S1024x128.rank) ∈ dot_S1024x128_S128x128_S1024x128_1_0_0_1_n_n.lhsNonContracting by decide)]
      rfl)
    (fun j q => dot_S1024x128_S128x128_S1024x128_1_0_0_1_n_n.lhsIdx_val_of_single rfl j q)
    (fun j q => dot_S1024x128_S128x128_S1024x128_1_0_0_1_n_n.rhsIdx_val_of_single rfl j q)
    (fun j q => by
      unfold DotDims.rhsIdx
      rw [dif_neg (show ¬(1 : Fin S128x128.rank) ∈ dot_S1024x128_S128x128_S1024x128_1_0_0_1_n_n.rhsBatch by decide),
        dif_pos (show (1 : Fin S128x128.rank) ∈ dot_S1024x128_S128x128_S1024x128_1_0_0_1_n_n.rhsNonContracting by decide)]
      rfl)
    A B i j

/-- One graph's 128 rows against a 128×128 matrix. -/
theorem mm128_apply {φ₁ φ₂ : FTy} (A : FVec Ideal S128x128 φ₁) (B : FVec Ideal S128x128 φ₂) (i : Fin 128) (j : Fin 128) :
    matmul dot_S128x128_S128x128_S128x128_1_0_0_1_n_n none A B (constant S128x128 .f32 0#32) (ix2 i j) = ∑ k : Fin 128, A (ix2 i k) * B (ix2 k j) :=
  Cert.MatmulNN.matmul_nn_apply (M := 128) (K := 128) (N := 128) dot_S128x128_S128x128_S128x128_1_0_0_1_n_n none rfl rfl
    (fun j q => by
      unfold DotDims.lhsIdx
      rw [dif_neg (show ¬(0 : Fin S128x128.rank) ∈ dot_S128x128_S128x128_S128x128_1_0_0_1_n_n.lhsBatch by decide),
        dif_pos (show (0 : Fin S128x128.rank) ∈ dot_S128x128_S128x128_S128x128_1_0_0_1_n_n.lhsNonContracting by decide)]
      rfl)
    (fun j q => dot_S128x128_S128x128_S128x128_1_0_0_1_n_n.lhsIdx_val_of_single rfl j q)
    (fun j q => dot_S128x128_S128x128_S128x128_1_0_0_1_n_n.rhsIdx_val_of_single rfl j q)
    (fun j q => by
      unfold DotDims.rhsIdx
      rw [dif_neg (show ¬(1 : Fin S128x128.rank) ∈ dot_S128x128_S128x128_S128x128_1_0_0_1_n_n.rhsBatch by decide),
        dif_pos (show (1 : Fin S128x128.rank) ∈ dot_S128x128_S128x128_S128x128_1_0_0_1_n_n.rhsNonContracting by decide)]
      rfl)
    A B i j

/-- A single row against a 128×128 matrix. -/
theorem mm1_apply {φ₁ φ₂ : FTy} (A : FVec Ideal S1x128 φ₁) (B : FVec Ideal S128x128 φ₂) (i : Fin 1) (j : Fin 128) :
    matmul dot_S1x128_S128x128_S1x128_1_0_0_1_n_n none A B (constant S1x128 .f32 0#32) (ix2 i j) = ∑ k : Fin 128, A (ix2 i k) * B (ix2 k j) :=
  Cert.MatmulNN.matmul_nn_apply (M := 1) (K := 128) (N := 128) dot_S1x128_S128x128_S1x128_1_0_0_1_n_n none rfl rfl
    (fun j q => by
      unfold DotDims.lhsIdx
      rw [dif_neg (show ¬(0 : Fin S1x128.rank) ∈ dot_S1x128_S128x128_S1x128_1_0_0_1_n_n.lhsBatch by decide),
        dif_pos (show (0 : Fin S1x128.rank) ∈ dot_S1x128_S128x128_S1x128_1_0_0_1_n_n.lhsNonContracting by decide)]
      rfl)
    (fun j q => dot_S1x128_S128x128_S1x128_1_0_0_1_n_n.lhsIdx_val_of_single rfl j q)
    (fun j q => dot_S1x128_S128x128_S1x128_1_0_0_1_n_n.rhsIdx_val_of_single rfl j q)
    (fun j q => by
      unfold DotDims.rhsIdx
      rw [dif_neg (show ¬(1 : Fin S128x128.rank) ∈ dot_S1x128_S128x128_S1x128_1_0_0_1_n_n.rhsBatch by decide),
        dif_pos (show (1 : Fin S128x128.rank) ∈ dot_S1x128_S128x128_S1x128_1_0_0_1_n_n.rhsNonContracting by decide)]
      rfl)
    A B i j

/-- A block's 8 rows against a 128×128 matrix. -/
theorem mm8_apply {φ₁ φ₂ : FTy} (A : FVec Ideal S8x128 φ₁) (B : FVec Ideal S128x128 φ₂) (i : Fin 8) (j : Fin 128) :
    matmul dot_S8x128_S128x128_S8x128_1_0_0_1_n_n none A B (constant S8x128 .f32 0#32) (ix2 i j) = ∑ k : Fin 128, A (ix2 i k) * B (ix2 k j) :=
  Cert.MatmulNN.matmul_nn_apply (M := 8) (K := 128) (N := 128) dot_S8x128_S128x128_S8x128_1_0_0_1_n_n none rfl rfl
    (fun j q => by
      unfold DotDims.lhsIdx
      rw [dif_neg (show ¬(0 : Fin S8x128.rank) ∈ dot_S8x128_S128x128_S8x128_1_0_0_1_n_n.lhsBatch by decide),
        dif_pos (show (0 : Fin S8x128.rank) ∈ dot_S8x128_S128x128_S8x128_1_0_0_1_n_n.lhsNonContracting by decide)]
      rfl)
    (fun j q => dot_S8x128_S128x128_S8x128_1_0_0_1_n_n.lhsIdx_val_of_single rfl j q)
    (fun j q => dot_S8x128_S128x128_S8x128_1_0_0_1_n_n.rhsIdx_val_of_single rfl j q)
    (fun j q => by
      unfold DotDims.rhsIdx
      rw [dif_neg (show ¬(1 : Fin S128x128.rank) ∈ dot_S8x128_S128x128_S8x128_1_0_0_1_n_n.rhsBatch by decide),
        dif_pos (show (1 : Fin S128x128.rank) ∈ dot_S8x128_S128x128_S8x128_1_0_0_1_n_n.rhsNonContracting by decide)]
      rfl)
    A B i j

/-- A block's 8 rows against a 128×2 matrix. -/
theorem mm8x2_apply {φ₁ φ₂ : FTy} (A : FVec Ideal S8x128 φ₁) (B : FVec Ideal S128x2 φ₂) (i : Fin 8) (j : Fin 2) :
    matmul dot_S8x128_S128x2_S8x2_1_0_0_1_n_n none A B (constant S8x2 .f32 0#32) (ix2 i j) = ∑ k : Fin 128, A (ix2 i k) * B (ix2 k j) :=
  Cert.MatmulNN.matmul_nn_apply (M := 8) (K := 128) (N := 2) dot_S8x128_S128x2_S8x2_1_0_0_1_n_n none rfl rfl
    (fun j q => by
      unfold DotDims.lhsIdx
      rw [dif_neg (show ¬(0 : Fin S8x128.rank) ∈ dot_S8x128_S128x2_S8x2_1_0_0_1_n_n.lhsBatch by decide),
        dif_pos (show (0 : Fin S8x128.rank) ∈ dot_S8x128_S128x2_S8x2_1_0_0_1_n_n.lhsNonContracting by decide)]
      rfl)
    (fun j q => dot_S8x128_S128x2_S8x2_1_0_0_1_n_n.lhsIdx_val_of_single rfl j q)
    (fun j q => dot_S8x128_S128x2_S8x2_1_0_0_1_n_n.rhsIdx_val_of_single rfl j q)
    (fun j q => by
      unfold DotDims.rhsIdx
      rw [dif_neg (show ¬(1 : Fin S128x2.rank) ∈ dot_S8x128_S128x2_S8x2_1_0_0_1_n_n.rhsBatch by decide),
        dif_pos (show (1 : Fin S128x2.rank) ∈ dot_S8x128_S128x2_S8x2_1_0_0_1_n_n.rhsNonContracting by decide)]
      rfl)
    A B i j

/-! ### The stages -/

/-- relu of a 128×128 product: `max (Σ_j a i j · b j d) 0`. -/
theorem relu_mm_of (A B : FVec Ideal S128x128 .bf16) (a b : Fin 128 → Fin 128 → EReal) (i d : Fin 128)
    (hA : ∀ j, A (ix2 i j) = a i j) (hB : ∀ j, B (ix2 j d) = b j d) :
    maximumf (truncf .bf16 (matmul dot_S128x128_S128x128_S128x128_1_0_0_1_n_n none A B (constant S128x128 .f32 0#32)) bitsLt_bf16_f32)
      (broadcast S128x128 (FloatOps.ofBits (F := Ideal) .bf16 0#16)) (ix2 i d) = max (∑ j, a i j * b j d) 0 := by
  rw [maximumf_apply, truncf_apply, broadcast_apply, mm128_apply, floatOps_ofBits_zero_bf16]
  simp only [hA, hB]

/-- A dense layer on one graph's 128 rows, its rows then multiplied by rows `o … o+127` of a 1024-row mask column. -/
theorem u_of (T1 W2b : FVec Ideal S128x128 .bf16) (B2 : FVec Ideal S1x128 .f32) (RM : FVec Ideal S1024x1 .bf16) (o : Nat)
    (h : S1024x1.Slices ![o, 0] S128x1) (t1 w2 : Fin 128 → Fin 128 → EReal) (b2 m : Fin 128 → EReal) (i d : Fin 128)
    (hT1 : ∀ k, T1 (ix2 i k) = t1 i k) (hW2 : ∀ k, W2b (ix2 k d) = w2 k d) (hB2 : B2 (ix2 (0 : Fin 1) d) = b2 d)
    (hRM : ∀ ρ : Fin 1024, ρ.val = o + i.val → RM (ix2 ρ (0 : Fin 1)) = m i) :
    mulf (truncf .bf16 (addf (matmul dot_S128x128_S128x128_S128x128_1_0_0_1_n_n none T1 W2b (constant S128x128 .f32 0#32))
        (broadcastTo S128x128 B2 broadcasts_S1x128_S128x128)) bitsLt_bf16_f32)
      (broadcastTo S128x128 (extractStridedSlice S128x1 ![o, 0] RM h) broadcasts_S128x1_S128x128) (ix2 i d)
      = (∑ k, t1 i k * w2 k d + b2 d) * m i := by
  have hi := i.isLt
  have hb : o + 128 ≤ 1024 := by
    obtain ⟨_, hb⟩ := h
    exact hb (0 : Fin 2)
  rw [mulf_apply, truncf_apply, addf_apply, mm128_apply, broadcastTo_1c_ac_apply, Cert.RowOps.broadcastTo_a1_ab_apply,
    extractStridedSlice_apply ![o, 0] RM h (ix2 i (0 : Fin 1)) (ix2 (⟨o + i.val, by omega⟩ : Fin 1024) (0 : Fin 1)) (fun ax => by
      match ax with
      | ⟨0, _⟩ => rfl
      | ⟨1, _⟩ => rfl),
    hRM ⟨o + i.val, by omega⟩ rfl, hB2]
  simp only [hT1, hW2]

/-- The first dense layer on all 1024 rows of a block (8 graphs of 128 rows), rows masked: row `ρ = 128·g + p` is row
    `p` of graph `g`. -/
theorem h_of (X : Vec Ideal S8x128x128 .f32) (W1b : FVec Ideal S128x128 .bf16) (B1 : FVec Ideal S1x128 .f32)
    (RM : FVec Ideal S1024x1 .bf16) (w1 : Fin 128 → Fin 128 → EReal) (b1 m : Fin 128 → EReal) (g : Fin 8) (p d : Fin 128)
    (ρ : Fin 1024) (hρ : ρ.val = g.val * 128 + p.val)
    (hW1 : ∀ k, W1b (ix2 k d) = w1 k d) (hB1 : B1 (ix2 (0 : Fin 1) d) = b1 d) (hRM : RM (ix2 ρ (0 : Fin 1)) = m p) :
    mulf (truncf .bf16 (addf (matmul dot_S1024x128_S128x128_S1024x128_1_0_0_1_n_n none
          (truncf .bf16 (shapeCast S1024x128 X shapeCasts_S8x128x128_S1024x128) bitsLt_bf16_f32) W1b (constant S1024x128 .f32 0#32))
        (broadcastTo S1024x128 B1 broadcasts_S1x128_S1024x128)) bitsLt_bf16_f32)
      (broadcastTo S1024x128 RM broadcasts_S1024x1_S1024x128) (ix2 ρ d)
      = (∑ k, X (ix3 g p k) * w1 k d + b1 d) * m p := by
  have hX : ∀ k, (truncf .bf16 (shapeCast S1024x128 X shapeCasts_S8x128x128_S1024x128) bitsLt_bf16_f32 : FVec Ideal S1024x128 .bf16) (ix2 ρ k)
      = X (ix3 g p k) :=
    fun k => Cert.LibAxes.shapeCast_abc_nc_apply X shapeCasts_S8x128x128_S1024x128 g p k ρ hρ
  rw [mulf_apply, truncf_apply, addf_apply, mm1024_apply, broadcastTo_1c_ac_apply, Cert.RowOps.broadcastTo_a1_ab_apply, hRM, hB1]
  simp only [hX, hW1]

/-- The masked sum over a graph's nodes as a 1×128 by 128×128 product. -/
theorem v_of (CM : FVec Ideal S1x128 .bf16) (T2 : FVec Ideal S128x128 .bf16) (m : Fin 128 → EReal) (t2 : Fin 128 → Fin 128 → EReal)
    (u : Fin 1) (d : Fin 128) (hCM : ∀ i, CM (ix2 u i) = m i) (hT2 : ∀ i, T2 (ix2 i d) = t2 i d) :
    matmul dot_S1x128_S128x128_S1x128_1_0_0_1_n_n none CM T2 (constant S1x128 .f32 0#32) (ix2 u d) = ∑ i, m i * t2 i d := by
  rw [mm1_apply]
  simp only [hCM, hT2]

/-- A block's 8 embeddings: `(v · Wa + s · ba) / max s 1`, row `g`. -/
theorem emb_of (VC : FVec Ideal S8x128 .f32) (Wab : FVec Ideal S128x128 .bf16) (Sz : FVec Ideal S8x1 .f32) (Ba : FVec Ideal S1x128 .f32)
    (v : Fin 128 → EReal) (wa : Fin 128 → Fin 128 → EReal) (ba : Fin 128 → EReal) (s : ℤ) (g : Fin 8) (d : Fin 128)
    (hVC : ∀ k, VC (ix2 g k) = v k) (hWa : ∀ k, Wab (ix2 k d) = wa k d) (hSz : Sz (ix2 g (0 : Fin 1)) = sz s)
    (hBa : Ba (ix2 (0 : Fin 1) d) = ba d) :
    divf (addf (matmul dot_S8x128_S128x128_S8x128_1_0_0_1_n_n none (truncf .bf16 VC bitsLt_bf16_f32) Wab (constant S8x128 .f32 0#32))
        (mulf (broadcastTo S8x128 Sz broadcasts_S8x1_S8x128) (broadcastTo S8x128 Ba broadcasts_S1x128_S8x128)))
      (broadcastTo S8x128 (maximumf Sz (broadcast S8x1 (FloatOps.ofBits (F := Ideal) .f32 1065353216#32))) broadcasts_S8x1_S8x128) (ix2 g d)
      = Ideal.div (∑ k, v k * wa k d + sz s * ba d) (max (sz s) 1) := by
  rw [divf_apply, addf_apply, mm8_apply, mulf_apply, Cert.RowOps.broadcastTo_a1_ab_apply, broadcastTo_1c_ac_apply,
    Cert.RowOps.broadcastTo_a1_ab_apply, maximumf_apply, broadcast_apply, hSz, hBa, floatOps_ofBits_one_f32]
  simp only [truncf_apply, hVC, hWa]

/-- The last dense layer on the pair's two embeddings, the weight matrix's halves applied separately. -/
theorem out_of (E1 E2 : FVec Ideal S8x128 .f32) (Wl Wh : FVec Ideal S128x2 .f32) (Bc : FVec Ideal S1x2 .f32)
    (e1 e2 : Fin 128 → EReal) (wc : Fin 256 → Fin 2 → EReal) (bc : Fin 2 → EReal) (g : Fin 8) (c : Fin 2)
    (h1 : ∀ k, E1 (ix2 g k) = e1 k) (h2 : ∀ k, E2 (ix2 g k) = e2 k)
    (hl : ∀ k, Wl (ix2 k c) = wc (Cert.Gnn.lo k) c) (hh : ∀ k, Wh (ix2 k c) = wc (Cert.Gnn.hi k) c) (hb : Bc (ix2 (0 : Fin 1) c) = bc c) :
    addf (addf (matmul dot_S8x128_S128x2_S8x2_1_0_0_1_n_n none E1 Wl (constant S8x2 .f32 0#32))
        (matmul dot_S8x128_S128x2_S8x2_1_0_0_1_n_n none E2 Wh (constant S8x2 .f32 0#32)))
      (broadcastTo S8x2 Bc broadcasts_S1x2_S8x2) (ix2 g c) = Cert.Gnn.kOut e1 e2 wc bc c := by
  rw [addf_apply, addf_apply, mm8x2_apply, mm8x2_apply, broadcastTo_1c_ac_apply, hb]
  unfold Cert.Gnn.kOut
  simp only [h1, h2, hl, hh]

end Cert.Gnn.Ker

end
-- ==== Proof.KerStagesLayout.lean ====
/-
  The kernel's layout and mask stages read at an index: pieces of a block (one graph's adjacency; a graph's 128 rows of a
  1024-row array; one graph's node count), the eight per-graph rows joined into an 8-row array, and the two node masks —
  a 1024×1 column (row `128·g + p` is 1 exactly when `p < s_g`) and a 1×128 row per graph — each built by comparing
  an iota with the node count converted to a float, which on exact values is the comparison of the integers.
-/
import proofs.«138933_g17179869476_cont_week2b_1059_28_alg».proof.Proof.Gen.KernelIdeal.Frame
import proofs.«138933_g17179869476_cont_week2b_1059_28_alg».proof.Proof.Spec
import proofs.«138933_g17179869476_cont_week2b_1059_28_alg».proof.Proof.LibMatmulNN
import proofs.«138933_g17179869476_cont_week2b_1059_28_alg».proof.Proof.LibAxes
import proofs.«138933_g17179869476_cont_week2b_1059_28_alg».proof.Proof.LibRowOps
import Idealize.ShloMosaic.Lib.ValueIdx
import Idealize.ShloMosaic.Lib.Pipeline.Value
import Idealize.ShloMosaic.PureOps.Ideal.Laws

noncomputable section

namespace Cert.Gnn.Ker

open Cert.KernelIdeal Cert.KernelIdeal.Gen Idealize.ShloMosaic Idealize.ShloMosaic.ValueIdx
open Cert.Gnn (mask sz)

/-- The node counts converted to floats: entry `g` is the count as an extended real. -/
theorem sz_of (x : Vec Ideal S8x1 .i32) (g : Fin 8) (u : Fin 1) :
    (sitofp (F := Ideal) .f32 (shapeCast S8x1 x shapeCasts_S8x1_S8x1) : FVec Ideal S8x1 .f32) (ix2 g u) = sz (x (ix2 g u)).toInt := by
  rw [shapeCast_self]; rfl

/-- A natural number below 128 written as a 32-bit word reads back, signed, as itself. -/
theorem layout_toInt_ofNat (p : Fin 128) : (BitVec.ofNat 32 p.val).toInt = (p.val : ℤ) := by
  have hp := p.isLt
  rw [BitVec.toInt_eq_toNat_of_lt (by rw [BitVec.toNat_ofNat]; omega), BitVec.toNat_ofNat]
  congr 1
  omega

/-- One entry of a node mask: the bit of "position `p` is below the count `s`" (both as extended reals, where the order is
    the integers' order), widened to a word and read as a number, is 1 when `p < s` and 0 otherwise. -/
theorem layout_mask_bit (p : Fin 128) (s : ℤ) :
    (((((Ideal.cmp .olt ((((BitVec.ofNat 32 p.val).toInt : ℝ)) : EReal) (sz s)).setWidth 32).toInt : ℝ)) : EReal) = mask s p := by
  rw [layout_toInt_ofNat]
  unfold Ideal.cmp sz mask
  simp only [EReal.coe_lt_coe_iff, Int.cast_lt]
  by_cases h : (p.val : ℤ) < s
  · rw [if_pos h, decide_eq_true h]
    have : ((BitVec.ofBool true).setWidth 32).toInt = 1 := by decide
    rw [this]; simp
  · rw [if_neg h, decide_eq_false h]
    have : ((BitVec.ofBool false).setWidth 32).toInt = 0 := by decide
    rw [this]; simp

/-- The same for any word equal to the position's word and any extended real equal to the count. -/
theorem layout_mask_word (p : Fin 128) (s : ℤ) (w : BitVec 32) (b : EReal) (hw : w = BitVec.ofNat 32 p.val) (hb : b = sz s) :
    (((((Ideal.cmp .olt (((w.toInt : ℝ)) : EReal) b).setWidth 32).toInt : ℝ)) : EReal) = mask s p := by
  subst hw hb; exact layout_mask_bit p s

/-- The row mask of a block as a 1024×1 column: row `ρ = 128·g + p` holds `mask s p`, `s` graph `g`'s node count. -/
theorem rm_of (Sz : FVec Ideal S8x1 .f32) (s : ℤ) (g : Fin 8) (p : Fin 128) (ρ : Fin 1024) (u : Fin 1)
    (hρ : ρ.val = g.val * 128 + p.val) (hSz : Sz (ix2 g (0 : Fin 1)) = sz s) :
    shapeCast S1024x1 (truncf (F := Ideal) .bf16 (sitofp (F := Ideal) .f32 (extui 32 (cmpf .olt (sitofp (F := Ideal) .f32 (iota .tc S8x128x1 32 [1] iota_S8x128x1_d1_w32))
        (broadcastTo S8x128x1 (shapeCast S8x1x1 Sz shapeCasts_S8x1_S8x1x1) broadcasts_S8x1x1_S8x128x1)) natLt_1_32)) bitsLt_bf16_f32)
      shapeCasts_S8x128x1_S1024x1 (ix2 ρ u) = mask s p := by
  refine (Cert.LibAxes.shapeCast_abc_nc_apply _ _ g p u ρ hρ).trans ?_
  have hiota : iota .tc S8x128x1 32 [1] iota_S8x128x1_d1_w32 (ix3 g p u) = BitVec.ofNat 32 p.val :=
    iota_single_apply .tc S8x128x1 32 1 iota_S8x128x1_d1_w32 (ix3 g p u)
  have hb : broadcastTo S8x128x1 (shapeCast S8x1x1 Sz shapeCasts_S8x1_S8x1x1) broadcasts_S8x1x1_S8x128x1 (ix3 g p u) = sz s := by
    refine (Cert.LibAxes.broadcastTo_a1c_abc_apply _ _ g p u).trans ?_
    refine (Cert.LibAxes.shapeCast_ac_a1c_apply Sz _ g (0 : Fin 1) u).trans ?_
    obtain rfl : u = 0 := Subsingleton.elim _ _
    exact hSz
  exact layout_mask_word p s _ _ hiota hb

/-- One graph's mask as a 1×128 row: the iota against entry `o` of the node counts, splat. -/
theorem cm_of (Sz : FVec Ideal S8x1 .f32) (o : Nat) (h : S8x1.Slices ![o, 0] S1x1) (s : ℤ) (g : Fin 8) (hg : g.val = o)
    (hSz : Sz (ix2 g (0 : Fin 1)) = sz s) (u : Fin 1) (i : Fin 128) :
    truncf (F := Ideal) .bf16 (sitofp (F := Ideal) .f32 (extui 32 (cmpf .olt (sitofp (F := Ideal) .f32 (iota .tc S1x128 32 [1] iota_S1x128_d1_w32))
        (broadcast S1x128 (extractAt ![0, 0] (extractStridedSlice S1x1 ![o, 0] Sz h) inpos_S1x1_p0_0))) natLt_1_32)) bitsLt_bf16_f32
      (ix2 u i) = mask s i := by
  have hiota : iota .tc S1x128 32 [1] iota_S1x128_d1_w32 (ix2 u i) = BitVec.ofNat 32 i.val :=
    iota_single_apply .tc S1x128 32 1 iota_S1x128_d1_w32 (ix2 u i)
  have hb : extractAt ![0, 0] (extractStridedSlice S1x1 ![o, 0] Sz h) inpos_S1x1_p0_0 = sz s := by
    unfold extractAt
    refine (extractStridedSlice_apply _ Sz h _ (ix2 g (0 : Fin 1)) (fun a => ?_)).trans hSz
    match a with
    | ⟨0, _⟩ => show g.val = o + 0; omega
    | ⟨1, _⟩ => rfl
  exact layout_mask_word i s _ _ hiota hb

/-- Rows `o … o+127` of a 1024-row array. -/
theorem hslice_of (H : FVec Ideal S1024x128 .bf16) (o : Nat) (h : S1024x128.Slices ![o, 0] S128x128) (hf : Fin 128 → Fin 128 → EReal)
    (j d : Fin 128) (hH : ∀ ρ : Fin 1024, ρ.val = o + j.val → H (ix2 ρ d) = hf j d) :
    extractStridedSlice S128x128 ![o, 0] H h (ix2 j d) = hf j d := by
  have hb : o + 128 ≤ 1024 := h.2 (0 : Fin 2)
  have hj := j.isLt
  refine (extractStridedSlice_apply _ H h (ix2 j d) (ix2 (⟨o + j.val, by omega⟩ : Fin 1024) d) (fun a => ?_)).trans (hH _ rfl)
  match a with
  | ⟨0, _⟩ => rfl
  | ⟨1, _⟩ => show d.val = 0 + d.val; omega

/-- Graph `g`'s adjacency: the 1×128×128 piece of the block at offset `g` on the first axis, cast to 128×128, reads at
    `(i, j)` the block at `(g, i, j)` (the unit axis contributes nothing to the row-major position, and a coordinate under
    the piece is the offset plus the coordinate inside). -/
theorem layout_adj (X : Vec Ideal S8x128x128 .f32) (o : Nat)
    (inb : ∀ a, (![o, 0, 0] : Fin 3 → Nat) a + S1x128x128.size a ≤ S8x128x128.size a) (g : Fin 8) (hg : g.val = o) (i j : Fin 128) :
    truncf (F := Ideal) .bf16 (shapeCast S128x128 (View.ld X (Rect.unit (s := S8x128x128) ![o, 0, 0] S1x128x128.size inb))
        shapeCasts_S1x128x128_S128x128) bitsLt_bf16_f32 (ix2 i j) = X (ix3 g i j) := by
  show shapeCast S128x128 (View.ld X (Rect.unit (s := S8x128x128) ![o, 0, 0] S1x128x128.size inb)) shapeCasts_S1x128x128_S128x128 (ix2 i j) = _
  refine (Cert.LibAxes.shapeCast_abc_nc_apply _ _ (0 : Fin 1) i j i (by simp)).trans ?_
  refine congrArg X (funext fun a => Fin.ext ?_)
  match a with
  | ⟨0, _⟩ => show o + 1 * 0 = g.val; omega
  | ⟨1, _⟩ => show 0 + 1 * i.val = i.val; omega
  | ⟨2, _⟩ => show 0 + 1 * j.val = j.val; omega

/-- Graph 0's adjacency, loaded as a 1×128×128 piece of the block and cast to 128×128. -/
theorem adj_of_0 (X : Vec Ideal S8x128x128 .f32) (i j : Fin 128) :
    truncf (F := Ideal) .bf16 (shapeCast S128x128 (View.ld X r0_4) shapeCasts_S1x128x128_S128x128) bitsLt_bf16_f32 (ix2 i j)
      = X (ix3 (0 : Fin 8) i j) := by
  exact layout_adj X 0 _ 0 rfl i j

/-- Graph 1's adjacency, loaded as a 1×128×128 piece of the block and cast to 128×128. -/
theorem adj_of_1 (X : Vec Ideal S8x128x128 .f32) (i j : Fin 128) :
    truncf (F := Ideal) .bf16 (shapeCast S128x128 (View.ld X r0_5) shapeCasts_S1x128x128_S128x128) bitsLt_bf16_f32 (ix2 i j)
      = X (ix3 (1 : Fin 8) i j) := by
  exact layout_adj X 1 _ 1 rfl i j

/-- Graph 2's adjacency, loaded as a 1×128×128 piece of the block and cast to 128×128. -/
theorem adj_of_2 (X : Vec Ideal S8x128x128 .f32) (i j : Fin 128) :
    truncf (F := Ideal) .bf16 (shapeCast S128x128 (View.ld X r0_6) shapeCasts_S1x128x128_S128x128) bitsLt_bf16_f32 (ix2 i j)
      = X (ix3 (2 : Fin 8) i j) := by
  exact layout_adj X 2 _ 2 rfl i j

/-- Graph 3's adjacency, loaded as a 1×128×128 piece of the block and cast to 128×128. -/
theorem adj_of_3 (X : Vec Ideal S8x128x128 .f32) (i j : Fin 128) :
    truncf (F := Ideal) .bf16 (shapeCast S128x128 (View.ld X r0_7) shapeCasts_S1x128x128_S128x128) bitsLt_bf16_f32 (ix2 i j)
      = X (ix3 (3 : Fin 8) i j) := by
  exact layout_adj X 3 _ 3 rfl i j

/-- Graph 4's adjacency, loaded as a 1×128×128 piece of the block and cast to 128×128. -/
theorem adj_of_4 (X : Vec Ideal S8x128x128 .f32) (i j : Fin 128) :
    truncf (F := Ideal) .bf16 (shapeCast S128x128 (View.ld X r0_8) shapeCasts_S1x128x128_S128x128) bitsLt_bf16_f32 (ix2 i j)
      = X (ix3 (4 : Fin 8) i j) := by
  exact layout_adj X 4 _ 4 rfl i j

/-- Graph 5's adjacency, loaded as a 1×128×128 piece of the block and cast to 128×128. -/
theorem adj_of_5 (X : Vec Ideal S8x128x128 .f32) (i j : Fin 128) :
    truncf (F := Ideal) .bf16 (shapeCast S128x128 (View.ld X r0_9) shapeCasts_S1x128x128_S128x128) bitsLt_bf16_f32 (ix2 i j)
      = X (ix3 (5 : Fin 8) i j) := by
  exact layout_adj X 5 _ 5 rfl i j

/-- Graph 6's adjacency, loaded as a 1×128×128 piece of the block and cast to 128×128. -/
theorem adj_of_6 (X : Vec Ideal S8x128x128 .f32) (i j : Fin 128) :
    truncf (F := Ideal) .bf16 (shapeCast S128x128 (View.ld X r0_10) shapeCasts_S1x128x128_S128x128) bitsLt_bf16_f32 (ix2 i j)
      = X (ix3 (6 : Fin 8) i j) := by
  exact layout_adj X 6 _ 6 rfl i j

/-- Graph 7's adjacency, loaded as a 1×128×128 piece of the block and cast to 128×128. -/
theorem adj_of_7 (X : Vec Ideal S8x128x128 .f32) (i j : Fin 128) :
    truncf (F := Ideal) .bf16 (shapeCast S128x128 (View.ld X r0_11) shapeCasts_S1x128x128_S128x128) bitsLt_bf16_f32 (ix2 i j)
      = X (ix3 (7 : Fin 8) i j) := by
  exact layout_adj X 7 _ 7 rfl i j

/-- The eight per-graph rows joined along axis 0: row `g` is the `g`-th piece. -/
theorem cat_of (v0 v1 v2 v3 v4 v5 v6 v7 : FVec Ideal S1x128 .f32) (g : Fin 8) (k : Fin 128) :
    concatenate S8x128 0 [⟨S1x128, v0⟩, ⟨S1x128, v1⟩, ⟨S1x128, v2⟩, ⟨S1x128, v3⟩, ⟨S1x128, v4⟩, ⟨S1x128, v5⟩, ⟨S1x128, v6⟩, ⟨S1x128, v7⟩]
      concatenates_S1x128_S1x128_S1x128_S1x128_S1x128_S1x128_S1x128_S1x128_S8x128_d0 (ix2 g k)
      = (![v0, v1, v2, v3, v4, v5, v6, v7] g) (ix2 (0 : Fin 1) k) := by
  show concatenate S8x128 0 (List.ofFn fun n : Fin 8 => (⟨S1x128, ![v0, v1, v2, v3, v4, v5, v6, v7] n⟩ : (s : Shape) × (s.Idx → _))) _ (ix2 g k) = _
  refine concatenate_ofFn_apply (t := S8x128) (s₁ := S1x128) (0 : Fin 2) _ _ rfl 1 rfl (ix2 g k) g (by show g.val / 1 = g.val; omega) (ix2 (0 : Fin 1) k)
    (by show 0 = g.val % 1; omega) (fun b hb => ?_)
  match b with
  | ⟨0, _⟩ => exact absurd rfl hb
  | ⟨1, _⟩ => rfl

/-- A weight matrix after the change of float format. -/
theorem w_of (W : Vec Ideal S128x128 .f32) (k d : Fin 128) : truncf (F := Ideal) .bf16 W bitsLt_bf16_f32 (ix2 k d) = W (ix2 k d) := by
  rfl

/-- A bias row through its trivial cast. -/
theorem bias_of (B : Vec Ideal S1x128 .f32) (u : Fin 1) (d : Fin 128) : shapeCast S1x128 B shapeCasts_S1x128_S1x128 (ix2 u d) = B (ix2 u d) := by
  rw [shapeCast_self]

/-- The last bias row through its trivial cast. -/
theorem bias2_of (B : Vec Ideal S1x2 .f32) (u : Fin 1) (c : Fin 2) : shapeCast S1x2 B shapeCasts_S1x2_S1x2 (ix2 u c) = B (ix2 u c) := by
  rw [shapeCast_self]

/-- The upper half of the last weight matrix. -/
theorem ld_lo (W : Vec Ideal S256x2 .f32) (k : Fin 128) (c : Fin 2) : View.ld W r0_12 (ix2 k c) = W (ix2 (Cert.Gnn.lo k) c) := by
  refine congrArg W (funext fun a => Fin.ext ?_)
  match a with
  | ⟨0, _⟩ => show 0 + 1 * k.val = k.val; omega
  | ⟨1, _⟩ => show 0 + 1 * c.val = c.val; omega

/-- The lower half of the last weight matrix. -/
theorem ld_hi (W : Vec Ideal S256x2 .f32) (k : Fin 128) (c : Fin 2) : View.ld W r0_13 (ix2 k c) = W (ix2 (Cert.Gnn.hi k) c) := by
  refine congrArg W (funext fun a => Fin.ext ?_)
  match a with
  | ⟨0, _⟩ => show 128 + 1 * k.val = 128 + k.val; omega
  | ⟨1, _⟩ => show 0 + 1 * c.val = c.val; omega

end Cert.Gnn.Ker

end
-- ==== Proof.KerChain.lean ====
/-
  What one grid point's body leaves in the output block: row `g` of the 8×2 block is the network's output for the
  `g`-th graph pair of the point's input blocks, in the row-masked arrangement.

  The body's result is one large term over the fourteen input blocks.  It is read backwards from the output entry: the
  last dense layer asks for row `g` of the two embedding arrays; an embedding row asks for row `g` of the joined
  per-graph sums, which is graph `g`'s own sum; that asks for the graph's column mask and its second-layer
  activations; those for its adjacency and its masked first-layer activations; and those for rows
  `128·g … 128·g + 127` of the block-wide first dense layer and of the block-wide row mask.  Each step is one stage
  lemma, and every graph of the block and both members of the pair go through the same steps.
-/
import proofs.«138933_g17179869476_cont_week2b_1059_28_alg».proof.Proof.KerStagesMM
import proofs.«138933_g17179869476_cont_week2b_1059_28_alg».proof.Proof.KerStagesLayout

noncomputable section

namespace Cert.Gnn.Ker

open Cert.KernelIdeal Cert.KernelIdeal.Gen Idealize.ShloMosaic Idealize.ShloMosaic.ValueIdx
open Cert.Gnn (mat2 kH kT1 kU kT2 kV kE kOut)

theorem zero2 : (![0, 0] : Fin 2 → Nat) = fun _ => 0 := by funext a; fin_cases a <;> rfl
theorem zero3 : (![0, 0, 0] : Fin 3 → Nat) = fun _ => 0 := by funext a; fin_cases a <;> rfl

/-- A bias row as a function of the column. -/
abbrev rowOf {n : Nat} (b : (⟨2, ![1, n]⟩ : Shape).Idx → EReal) : Fin n → EReal := fun d => b (ix2 (0 : Fin 1) d)
/-- Graph `g` of a block of eight matrices. -/
abbrev graphOf (x : Vec Ideal S8x128x128 .f32) (g : Fin 8) : Fin 128 → Fin 128 → EReal := fun i j => x (ix3 g i j)
/-- Graph `g`'s node count in a block of eight. -/
abbrev countOf (x : Vec Ideal S8x1 .i32) (g : Fin 8) : ℤ := (x (ix2 g (0 : Fin 1))).toInt

set_option hygiene false

/-- One graph's adjacency, whichever of the eight pieces of the block it is. -/
local macro "adjacency" xa:ident : tactic => `(tactic| first
  | exact adj_of_0 $xa _ _ | exact adj_of_1 $xa _ _ | exact adj_of_2 $xa _ _ | exact adj_of_3 $xa _ _
  | exact adj_of_4 $xa _ _ | exact adj_of_5 $xa _ _ | exact adj_of_6 $xa _ _ | exact adj_of_7 $xa _ _)

/-- Row `g` of the eight joined per-graph sums is graph `g`'s own sum. -/
theorem cat_rows (v0 v1 v2 v3 v4 v5 v6 v7 : FVec Ideal S1x128 .f32) (vf : Fin 128 → EReal) (g : Fin 8) (k : Fin 128)
    (h0 : g = 0 → v0 (ix2 (0 : Fin 1) k) = vf k) (h1 : g = 1 → v1 (ix2 (0 : Fin 1) k) = vf k)
    (h2 : g = 2 → v2 (ix2 (0 : Fin 1) k) = vf k) (h3 : g = 3 → v3 (ix2 (0 : Fin 1) k) = vf k)
    (h4 : g = 4 → v4 (ix2 (0 : Fin 1) k) = vf k) (h5 : g = 5 → v5 (ix2 (0 : Fin 1) k) = vf k)
    (h6 : g = 6 → v6 (ix2 (0 : Fin 1) k) = vf k) (h7 : g = 7 → v7 (ix2 (0 : Fin 1) k) = vf k) :
    concatenate S8x128 0 [⟨S1x128, v0⟩, ⟨S1x128, v1⟩, ⟨S1x128, v2⟩, ⟨S1x128, v3⟩, ⟨S1x128, v4⟩, ⟨S1x128, v5⟩, ⟨S1x128, v6⟩, ⟨S1x128, v7⟩]
      concatenates_S1x128_S1x128_S1x128_S1x128_S1x128_S1x128_S1x128_S1x128_S8x128_d0 (ix2 g k) = vf k := by
  rw [cat_of]
  fin_cases g
  · exact h0 rfl
  · exact h1 rfl
  · exact h2 rfl
  · exact h3 rfl
  · exact h4 rfl
  · exact h5 rfl
  · exact h6 rfl
  · exact h7 rfl

/-- One graph of one member of the pair: from its masked sum over nodes down to the input blocks.  `g` is the graph's
    place in the block, known through `hg`; the features, adjacency and node counts are the member's blocks. -/
local macro "graph" xf:ident xa:ident xs:ident : tactic => `(tactic| (
  intro hg
  unfold Cert.Gnn.kV
  refine v_of _ _ (m := Cert.Gnn.mask (countOf $xs g)) (t2 := kT2 (mat2 x6) (rowOf x7) (mat2 x8) (rowOf x9) (graphOf $xf g) (graphOf $xa g) (countOf $xs g))
    (u := 0) (d := k) ?_ ?_
  · intro i
    exact cm_of _ _ _ (countOf $xs g) g (by rw [hg]; rfl) (sz_of $xs g 0) 0 i
  · intro i
    unfold Cert.Gnn.kT2
    refine relu_mm_of _ _ (a := graphOf $xa g)
      (b := kU (mat2 x6) (rowOf x7) (mat2 x8) (rowOf x9) (graphOf $xf g) (graphOf $xa g) (countOf $xs g)) (i := i) (d := k) ?_ ?_
    · intro j
      exact layout_adj $xa _ _ g (by rw [hg]; rfl) i j
    · intro j
      unfold Cert.Gnn.kU
      refine u_of _ _ _ _ _ _ (t1 := kT1 (mat2 x6) (rowOf x7) (graphOf $xf g) (graphOf $xa g) (countOf $xs g)) (w2 := mat2 x8)
        (b2 := rowOf x9) (m := Cert.Gnn.mask (countOf $xs g)) (i := j) (d := k) ?_ ?_ ?_ ?_
      · intro k'
        unfold Cert.Gnn.kT1
        refine relu_mm_of _ _ (a := graphOf $xa g) (b := kH (mat2 x6) (rowOf x7) (graphOf $xf g) (countOf $xs g)) (i := j) (d := k') ?_ ?_
        · intro j'
          exact layout_adj $xa _ _ g (by rw [hg]; rfl) j j'
        · intro j'
          refine hslice_of _ _ _ (hf := kH (mat2 x6) (rowOf x7) (graphOf $xf g) (countOf $xs g)) (j := j') (d := k') ?_
          intro ρ hρ
          unfold Cert.Gnn.kH
          refine h_of $xf _ _ _ (w1 := mat2 x6) (b1 := rowOf x7) (m := Cert.Gnn.mask (countOf $xs g)) (g := g) (p := j') (d := k') (ρ := ρ)
            (by rw [hρ, hg]; rfl) ?_ ?_ ?_
          · exact fun k'' => w_of x6 k'' k'
          · exact bias_of x7 0 k'
          · exact rm_of _ (countOf $xs g) g j' ρ 0 (by rw [hρ, hg]; rfl) (sz_of $xs g 0)
      · exact fun k' => w_of x8 k' k
      · exact bias_of x9 0 k
      · intro ρ hρ
        exact rm_of _ (countOf $xs g) g j ρ 0 (by rw [hρ, hg]; rfl) (sz_of $xs g 0)))

/-- One member of the pair: from row `g` of its embedding array down to the input blocks. -/
local macro "member" xf:ident xa:ident xs:ident : tactic => `(tactic| (
  intro d
  unfold Cert.Gnn.kE
  refine emb_of _ _ _ _ (v := kV (mat2 x6) (rowOf x7) (mat2 x8) (rowOf x9) (graphOf $xf g) (graphOf $xa g) (countOf $xs g))
    (wa := mat2 x10) (ba := rowOf x11) (s := countOf $xs g) (g := g) (d := d) ?_ ?_ ?_ ?_
  · intro k
    refine cat_rows _ _ _ _ _ _ _ _ (vf := kV (mat2 x6) (rowOf x7) (mat2 x8) (rowOf x9) (graphOf $xf g) (graphOf $xa g) (countOf $xs g))
      (g := g) (k := k) ?_ ?_ ?_ ?_ ?_ ?_ ?_ ?_
    · graph $xf $xa $xs
    · graph $xf $xa $xs
    · graph $xf $xa $xs
    · graph $xf $xa $xs
    · graph $xf $xa $xs
    · graph $xf $xa $xs
    · graph $xf $xa $xs
    · graph $xf $xa $xs
  · exact fun k => w_of x10 k d
  · exact sz_of $xs g 0
  · exact bias_of x11 0 d))

set_option hygiene true

set_option maxHeartbeats 1000000 in
theorem block_value' (x0 x1 x2 x3 : Vec Ideal S8x128x128 .f32) (x4 x5 : Vec Ideal S8x1 .i32) (x6 : Vec Ideal S128x128 .f32) (x7 : Vec Ideal S1x128 .f32) (x8 : Vec Ideal S128x128 .f32) (x9 : Vec Ideal S1x128 .f32) (x10 : Vec Ideal S128x128 .f32) (x11 : Vec Ideal S1x128 .f32) (x12 : Vec Ideal S256x2 .f32) (x13 : Vec Ideal S1x2 .f32)
    (g : Fin 8) (c : Fin 2) :
    out0_14 (F := Ideal) x0 x1 x2 x3 x4 x5 x6 x7 x8 x9 x10 x11 x12 x13 (ix2 g c)
      = kOut (kE (mat2 x6) (rowOf x7) (mat2 x8) (rowOf x9) (mat2 x10) (rowOf x11) (graphOf x0 g) (graphOf x1 g) (countOf x4 g))
          (kE (mat2 x6) (rowOf x7) (mat2 x8) (rowOf x9) (mat2 x10) (rowOf x11) (graphOf x2 g) (graphOf x3 g) (countOf x5 g)) (mat2 x12) (rowOf x13) c := by
  unfold out0_14
  rw [View.canon_unit_zero zero2]
  simp only [View.ld_unit_zero (S := S128x128) zero2, View.ld_unit_zero (S := S1x128) zero2,
    View.ld_unit_zero (S := S8x1) zero2, View.ld_unit_zero (S := S8x128x128) zero3, View.ld_unit_zero (S := S1x2) zero2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  refine out_of _ _ _ _ _ (e1 := (kE (mat2 x6) (rowOf x7) (mat2 x8) (rowOf x9) (mat2 x10) (rowOf x11) (graphOf x0 g) (graphOf x1 g) (countOf x4 g)))
    (e2 := (kE (mat2 x6) (rowOf x7) (mat2 x8) (rowOf x9) (mat2 x10) (rowOf x11) (graphOf x2 g) (graphOf x3 g) (countOf x5 g))) (wc := mat2 x12) (bc := rowOf x13) (g := g) (c := c) ?_ ?_ ?_ ?_ ?_
  · member x0 x1 x4
  · member x2 x3 x5
  · exact fun k => ld_lo x12 k c
  · exact fun k => ld_hi x12 k c
  · exact bias2_of x13 0 c

/-- The same, with the block's pieces written out. -/
theorem block_value (x0 x1 x2 x3 : Vec Ideal S8x128x128 .f32) (x4 x5 : Vec Ideal S8x1 .i32) (x6 : Vec Ideal S128x128 .f32) (x7 : Vec Ideal S1x128 .f32) (x8 : Vec Ideal S128x128 .f32) (x9 : Vec Ideal S1x128 .f32) (x10 : Vec Ideal S128x128 .f32) (x11 : Vec Ideal S1x128 .f32) (x12 : Vec Ideal S256x2 .f32) (x13 : Vec Ideal S1x2 .f32)
    (g : Fin 8) (c : Fin 2) :
    out0_14 (F := Ideal) x0 x1 x2 x3 x4 x5 x6 x7 x8 x9 x10 x11 x12 x13 (ix2 g c)
      = Cert.Gnn.kOut
        (Cert.Gnn.kE (Cert.Gnn.mat2 x6) (fun d => x7 (ix2 (0 : Fin 1) d)) (Cert.Gnn.mat2 x8) (fun d => x9 (ix2 (0 : Fin 1) d)) (Cert.Gnn.mat2 x10) (fun d => x11 (ix2 (0 : Fin 1) d))
        (fun i j => x0 (ix3 g i j)) (fun i j => x1 (ix3 g i j)) (x4 (ix2 g (0 : Fin 1))).toInt)
        (Cert.Gnn.kE (Cert.Gnn.mat2 x6) (fun d => x7 (ix2 (0 : Fin 1) d)) (Cert.Gnn.mat2 x8) (fun d => x9 (ix2 (0 : Fin 1) d)) (Cert.Gnn.mat2 x10) (fun d => x11 (ix2 (0 : Fin 1) d))
        (fun i j => x2 (ix3 g i j)) (fun i j => x3 (ix3 g i j)) (x5 (ix2 g (0 : Fin 1))).toInt)
        (Cert.Gnn.mat2 x12) (fun c => x13 (ix2 (0 : Fin 1) c)) c :=
  block_value' x0 x1 x2 x3 x4 x5 x6 x7 x8 x9 x10 x11 x12 x13 g c

end Cert.Gnn.Ker

end
-- ==== Proof.KerArray.lean ====
/-
  From one grid point's block to the whole output array.

  The grid has eight points. At point `t` the four batched arguments, the two node-count columns and the output are
  read and written in blocks of eight graphs, graphs `8 t` to `8 t + 7`; the weight matrices and the bias rows are
  whole at every point. The node counts and the biases reach the region re-laid, a length-`n` vector as an `[n, 1]`
  column or a `[1, n]` row, which keeps every entry at its row-major position. So row `g` of what point `t` writes
  back is the network's output for graph pair `8 t + g` of the arguments as launched; the eight blocks tile the
  64 rows of the output array (row `r` lies in the block of point `r / 8`), and the array after the run is the
  network's output for the whole batch.
-/
import proofs.«138933_g17179869476_cont_week2b_1059_28_alg».proof.Proof.KerChain
import proofs.«138933_g17179869476_cont_week2b_1059_28_alg».proof.Proof.Gen.KernelIdeal.Value
import proofs.«138933_g17179869476_cont_week2b_1059_28_alg».proof.Proof.Spec
import Idealize.ShloMosaic.Lib.Pipeline.Value
import Idealize.ShloMosaic.Lib.ValueIdx
import Idealize.ShloMosaic.Lib.StableHlo.Run
import Idealize.ShloMosaic.Lib.ValueLayout

noncomputable section

namespace Cert.Gnn.KerValue

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-- The printed index maps over the eight grid points: a batched window's block index is the point's number on the
    batch axis and zero on the others; a whole-array window's block index is zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = t.val ∧ win0_14.index t (1 : Fin 2) = 0) :=
  (by decide +kernel : ∀ t : Fin grid0.N, _)

/-- Row `g` of point `t`'s block of batched argument 0 is graph `8 t + g` of the argument. -/
theorem blk0_apply (c : Dev nD) (t : Fin cfg0.N) (x : S8x128x128.Idx) (k : S64x128x128.Idx)
    (h0 : (k 0).val = 8 * t.val + (x 0).val) (h1 : (k 1).val = (x 1).val) (h2 : (k 2).val = (x 2).val) :
    (iblk m c 0 t : Vec Ideal S8x128x128 .f32) x
      = (m ((c : Thread nD τ).loc main_arg0) : S64x128x128.Idx → EReal) k := by
  obtain ⟨⟨e0, e1, e2⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 8 + 1 * (x 0).val = (k 0).val; rw [e0, h0]; omega
  | ⟨1, _⟩ => show win0_0.index t 1 * 128 + 1 * (x 1).val = (k 1).val; rw [e1, h1]; omega
  | ⟨2, _⟩ => show win0_0.index t 2 * 128 + 1 * (x 2).val = (k 2).val; rw [e2, h2]; omega

/-- Row `g` of point `t`'s block of batched argument 1 is graph `8 t + g` of the argument. -/
theorem blk1_apply (c : Dev nD) (t : Fin cfg0.N) (x : S8x128x128.Idx) (k : S64x128x128.Idx)
    (h0 : (k 0).val = 8 * t.val + (x 0).val) (h1 : (k 1).val = (x 1).val) (h2 : (k 2).val = (x 2).val) :
    (iblk m c 1 t : Vec Ideal S8x128x128 .f32) x
      = (m ((c : Thread nD τ).loc main_arg1) : S64x128x128.Idx → EReal) k := by
  obtain ⟨-, ⟨e0, e1, e2⟩, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 8 + 1 * (x 0).val = (k 0).val; rw [e0, h0]; omega
  | ⟨1, _⟩ => show win0_1.index t 1 * 128 + 1 * (x 1).val = (k 1).val; rw [e1, h1]; omega
  | ⟨2, _⟩ => show win0_1.index t 2 * 128 + 1 * (x 2).val = (k 2).val; rw [e2, h2]; omega

/-- Row `g` of point `t`'s block of batched argument 2 is graph `8 t + g` of the argument. -/
theorem blk2_apply (c : Dev nD) (t : Fin cfg0.N) (x : S8x128x128.Idx) (k : S64x128x128.Idx)
    (h0 : (k 0).val = 8 * t.val + (x 0).val) (h1 : (k 1).val = (x 1).val) (h2 : (k 2).val = (x 2).val) :
    (iblk m c 2 t : Vec Ideal S8x128x128 .f32) x
      = (m ((c : Thread nD τ).loc main_arg2) : S64x128x128.Idx → EReal) k := by
  obtain ⟨-, -, ⟨e0, e1, e2⟩, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t 0 * 8 + 1 * (x 0).val = (k 0).val; rw [e0, h0]; omega
  | ⟨1, _⟩ => show win0_2.index t 1 * 128 + 1 * (x 1).val = (k 1).val; rw [e1, h1]; omega
  | ⟨2, _⟩ => show win0_2.index t 2 * 128 + 1 * (x 2).val = (k 2).val; rw [e2, h2]; omega

/-- Row `g` of point `t`'s block of batched argument 3 is graph `8 t + g` of the argument. -/
theorem blk3_apply (c : Dev nD) (t : Fin cfg0.N) (x : S8x128x128.Idx) (k : S64x128x128.Idx)
    (h0 : (k 0).val = 8 * t.val + (x 0).val) (h1 : (k 1).val = (x 1).val) (h2 : (k 2).val = (x 2).val) :
    (iblk m c 3 t : Vec Ideal S8x128x128 .f32) x
      = (m ((c : Thread nD τ).loc main_arg3) : S64x128x128.Idx → EReal) k := by
  obtain ⟨-, -, -, ⟨e0, e1, e2⟩, -⟩ := idx_facts t
  unfold iblk
  rw [View.read_apply]
  show V m c main_arg3 _ = m (c.tc.loc main_arg3) _
  rw [V_main_arg3]
  congr 1
  funext a
  apply Fin.ext
  match a with
  | ⟨0, _⟩ => show win0_3.index t 0 * 8 + 1 * (x 0).val = (k 0).val; rw [e0, h0]; omega
  | ⟨1, _⟩ => show win0_3.index t 1 * 128 + 1 * (x 1).val = (k 1).val; rw [e1, h1]; omega
  | ⟨2, _⟩ => show win0_3.index t 2 * 128 + 1 * (x 2).val = (k 2).val; rw [e2, h2]; omega

/-- Entry `g` of point `t`'s block of the node counts laid as a column (window 4) is the count of graph
    `8 t + g`. -/
theorem blk4_apply (c : Dev nD) (t : Fin cfg0.N) (g : Fin 8) (r : Fin 64) (hr : r.val = 8 * t.val + g.val) :
    (iblk m c 4 t : Vec Ideal S8x1 .i32) (ix2 g (0 : Fin 1))
      = (m ((c : Thread nD τ).loc main_arg4) : S64.Idx → BitVec 32) (ix1 r) := by
  obtain ⟨-, -, -, -, ⟨e0, e1⟩, -⟩ := idx_facts t
  have e : (V m c main_v0 : S64x1.Idx → BitVec 32)
      = shapeCast S64x1 (m ((c : Thread nD τ).loc main_arg4) : S64.Idx → BitVec 32) shapeCasts_S64_S64x1 := by
    dsimp only [Gen.V, Gen.hostOps0]; after_results; rfl
  unfold iblk
  rw [View.read_apply]
  show V m c main_v0 _ = _
  rw [e]
  refine shapeCast_apply (s := S64) (t := S64x1) _ shapeCasts_S64_S64x1 _ (ix1 r) ?_
  rw [Shape.rowMajor_val_two, Shape.rowMajor_val_one]
  show r.val = (win0_4.index t 0 * 8 + 1 * g.val) * 1 + (win0_4.index t 1 * 1 + 1 * 0)
  rw [e0, e1, hr]; omega

/-- Entry `g` of point `t`'s block of the node counts laid as a column (window 5) is the count of graph
    `8 t + g`. -/
theorem blk5_apply (c : Dev nD) (t : Fin cfg0.N) (g : Fin 8) (r : Fin 64) (hr : r.val = 8 * t.val + g.val) :
    (iblk m c 5 t : Vec Ideal S8x1 .i32) (ix2 g (0 : Fin 1))
      = (m ((c : Thread nD τ).loc main_arg5) : S64.Idx → BitVec 32) (ix1 r) := by
  obtain ⟨-, -, -, -, -, ⟨e0, e1⟩, -⟩ := idx_facts t
  have e : (V m c main_v1 : S64x1.Idx → BitVec 32)
      = shapeCast S64x1 (m ((c : Thread nD τ).loc main_arg5) : S64.Idx → BitVec 32) shapeCasts_S64_S64x1 := by
    dsimp only [Gen.V, Gen.hostOps0]; after_results; rfl
  unfold iblk
  rw [View.read_apply]
  show V m c main_v1 _ = _
  rw [e]
  refine shapeCast_apply (s := S64) (t := S64x1) _ shapeCasts_S64_S64x1 _ (ix1 r) ?_
  rw [Shape.rowMajor_val_two, Shape.rowMajor_val_one]
  show r.val = (win0_5.index t 0 * 8 + 1 * g.val) * 1 + (win0_5.index t 1 * 1 + 1 * 0)
  rw [e0, e1, hr]; omega

/-- Window 6 holds the whole of its argument at every point. -/
theorem blk6_eq (c : Dev nD) (t : Fin cfg0.N) :
    (iblk m c 6 t : Vec Ideal S128x128 .f32) = (m ((c : Thread nD τ).loc main_arg6) : S128x128.Idx → EReal) := by
  obtain ⟨-, -, -, -, -, -, ⟨e0, e1⟩, -⟩ := idx_facts t
  funext x
  unfold iblk
  rw [View.read_apply]
  show V m c main_arg6 _ = m (c.tc.loc main_arg6) x
  rw [V_main_arg6]
  congr 1
  funext a
  apply Fin.ext
  match a with
  | ⟨0, _⟩ => show win0_6.index t 0 * 128 + 1 * (x 0).val = (x 0).val; rw [e0]; omega
  | ⟨1, _⟩ => show win0_6.index t 1 * 128 + 1 * (x 1).val = (x 1).val; rw [e1]; omega

/-- Window 7 holds its bias vector laid as one row: entry `(0, d)` is entry `d` of the argument. -/
theorem blk7_apply (c : Dev nD) (t : Fin cfg0.N) (d : Fin 128) :
    (iblk m c 7 t : Vec Ideal S1x128 .f32) (ix2 (0 : Fin 1) d)
      = (m ((c : Thread nD τ).loc main_arg7) : S128.Idx → EReal) (ix1 d) := by
  obtain ⟨-, -, -, -, -, -, -, ⟨e0, e1⟩, -⟩ := idx_facts t
  have e : (V m c main_v2 : S1x128.Idx → EReal)
      = shapeCast S1x128 (m ((c : Thread nD τ).loc main_arg7) : S128.Idx → EReal) shapeCasts_S128_S1x128 := by
    dsimp only [Gen.V, Gen.hostOps0]; after_results; rfl
  unfold iblk
  rw [View.read_apply]
  show V m c main_v2 _ = _
  rw [e]
  refine shapeCast_apply (s := S128) (t := S1x128) _ shapeCasts_S128_S1x128 _ (ix1 d) ?_
  rw [Shape.rowMajor_val_two, Shape.rowMajor_val_one]
  show d.val = (win0_7.index t 0 * 1 + 1 * 0) * 128 + (win0_7.index t 1 * 128 + 1 * d.val)
  rw [e0, e1]; omega

/-- Window 8 holds the whole of its argument at every point. -/
theorem blk8_eq (c : Dev nD) (t : Fin cfg0.N) :
    (iblk m c 8 t : Vec Ideal S128x128 .f32) = (m ((c : Thread nD τ).loc main_arg8) : S128x128.Idx → EReal) := by
  obtain ⟨-, -, -, -, -, -, -, -, ⟨e0, e1⟩, -⟩ := idx_facts t
  funext x
  unfold iblk
  rw [View.read_apply]
  show V m c main_arg8 _ = m (c.tc.loc main_arg8) x
  rw [V_main_arg8]
  congr 1
  funext a
  apply Fin.ext
  match a with
  | ⟨0, _⟩ => show win0_8.index t 0 * 128 + 1 * (x 0).val = (x 0).val; rw [e0]; omega
  | ⟨1, _⟩ => show win0_8.index t 1 * 128 + 1 * (x 1).val = (x 1).val; rw [e1]; omega

/-- Window 9 holds its bias vector laid as one row: entry `(0, d)` is entry `d` of the argument. -/
theorem blk9_apply (c : Dev nD) (t : Fin cfg0.N) (d : Fin 128) :
    (iblk m c 9 t : Vec Ideal S1x128 .f32) (ix2 (0 : Fin 1) d)
      = (m ((c : Thread nD τ).loc main_arg9) : S128.Idx → EReal) (ix1 d) := by
  obtain ⟨-, -, -, -, -, -, -, -, -, ⟨e0, e1⟩, -⟩ := idx_facts t
  have e : (V m c main_v3 : S1x128.Idx → EReal)
      = shapeCast S1x128 (m ((c : Thread nD τ).loc main_arg9) : S128.Idx → EReal) shapeCasts_S128_S1x128 := by
    dsimp only [Gen.V, Gen.hostOps0]; after_results; rfl
  unfold iblk
  rw [View.read_apply]
  show V m c main_v3 _ = _
  rw [e]
  refine shapeCast_apply (s := S128) (t := S1x128) _ shapeCasts_S128_S1x128 _ (ix1 d) ?_
  rw [Shape.rowMajor_val_two, Shape.rowMajor_val_one]
  show d.val = (win0_9.index t 0 * 1 + 1 * 0) * 128 + (win0_9.index t 1 * 128 + 1 * d.val)
  rw [e0, e1]; omega

/-- Window 10 holds the whole of its argument at every point. -/
theorem blk10_eq (c : Dev nD) (t : Fin cfg0.N) :
    (iblk m c 10 t : Vec Ideal S128x128 .f32) = (m ((c : Thread nD τ).loc main_arg10) : S128x128.Idx → EReal) := by
  obtain ⟨-, -, -, -, -, -, -, -, -, -, ⟨e0, e1⟩, -⟩ := idx_facts t
  funext x
  unfold iblk
  rw [View.read_apply]
  show V m c main_arg10 _ = m (c.tc.loc main_arg10) x
  rw [V_main_arg10]
  congr 1
  funext a
  apply Fin.ext
  match a with
  | ⟨0, _⟩ => show win0_10.index t 0 * 128 + 1 * (x 0).val = (x 0).val; rw [e0]; omega
  | ⟨1, _⟩ => show win0_10.index t 1 * 128 + 1 * (x 1).val = (x 1).val; rw [e1]; omega

/-- Window 11 holds its bias vector laid as one row: entry `(0, d)` is entry `d` of the argument. -/
theorem blk11_apply (c : Dev nD) (t : Fin cfg0.N) (d : Fin 128) :
    (iblk m c 11 t : Vec Ideal S1x128 .f32) (ix2 (0 : Fin 1) d)
      = (m ((c : Thread nD τ).loc main_arg11) : S128.Idx → EReal) (ix1 d) := by
  obtain ⟨-, -, -, -, -, -, -, -, -, -, -, ⟨e0, e1⟩, -⟩ := idx_facts t
  have e : (V m c main_v4 : S1x128.Idx → EReal)
      = shapeCast S1x128 (m ((c : Thread nD τ).loc main_arg11) : S128.Idx → EReal) shapeCasts_S128_S1x128 := by
    dsimp only [Gen.V, Gen.hostOps0]; after_results; rfl
  unfold iblk
  rw [View.read_apply]
  show V m c main_v4 _ = _
  rw [e]
  refine shapeCast_apply (s := S128) (t := S1x128) _ shapeCasts_S128_S1x128 _ (ix1 d) ?_
  rw [Shape.rowMajor_val_two, Shape.rowMajor_val_one]
  show d.val = (win0_11.index t 0 * 1 + 1 * 0) * 128 + (win0_11.index t 1 * 128 + 1 * d.val)
  rw [e0, e1]; omega

/-- Window 12 holds the whole of its argument at every point. -/
theorem blk12_eq (c : Dev nD) (t : Fin cfg0.N) :
    (iblk m c 12 t : Vec Ideal S256x2 .f32) = (m ((c : Thread nD τ).loc main_arg12) : S256x2.Idx → EReal) := by
  obtain ⟨-, -, -, -, -, -, -, -, -, -, -, -, ⟨e0, e1⟩, -⟩ := idx_facts t
  funext x
  unfold iblk
  rw [View.read_apply]
  show V m c main_arg12 _ = m (c.tc.loc main_arg12) x
  rw [V_main_arg12]
  congr 1
  funext a
  apply Fin.ext
  match a with
  | ⟨0, _⟩ => show win0_12.index t 0 * 256 + 1 * (x 0).val = (x 0).val; rw [e0]; omega
  | ⟨1, _⟩ => show win0_12.index t 1 * 2 + 1 * (x 1).val = (x 1).val; rw [e1]; omega

/-- Window 13 holds its bias vector laid as one row: entry `(0, d)` is entry `d` of the argument. -/
theorem blk13_apply (c : Dev nD) (t : Fin cfg0.N) (d : Fin 2) :
    (iblk m c 13 t : Vec Ideal S1x2 .f32) (ix2 (0 : Fin 1) d)
      = (m ((c : Thread nD τ).loc main_arg13) : S2.Idx → EReal) (ix1 d) := by
  obtain ⟨-, -, -, -, -, -, -, -, -, -, -, -, -, ⟨e0, e1⟩, -⟩ := idx_facts t
  have e : (V m c main_v5 : S1x2.Idx → EReal)
      = shapeCast S1x2 (m ((c : Thread nD τ).loc main_arg13) : S2.Idx → EReal) shapeCasts_S2_S1x2 := by
    dsimp only [Gen.V, Gen.hostOps0]; after_results; rfl
  unfold iblk
  rw [View.read_apply]
  show V m c main_v5 _ = _
  rw [e]
  refine shapeCast_apply (s := S2) (t := S1x2) _ shapeCasts_S2_S1x2 _ (ix1 d) ?_
  rw [Shape.rowMajor_val_two, Shape.rowMajor_val_one]
  show d.val = (win0_13.index t 0 * 1 + 1 * 0) * 2 + (win0_13.index t 1 * 2 + 1 * d.val)
  rw [e0, e1]; omega

/-- Entry `(g, c')` of point `t`'s output block sits at entry `(8 t + g, c')` of the output array. -/
theorem out_emb (t : Fin cfg0.N) (g : Fin 8) (c' : Fin 2) (r : Fin 64) (hr : r.val = 8 * t.val + g.val) :
    ((cfg0.win 14).blk t).view.emb (ix2 g c' : S8x2.Idx) = (ix2 r c' : S64x2.Idx) := by
  obtain ⟨-, -, -, -, -, -, -, -, -, -, -, -, -, -, e0, e1⟩ := idx_facts t
  funext a
  apply Fin.ext
  match a with
  | ⟨0, _⟩ => show win0_14.index t 0 * 8 + 1 * g.val = r.val; rw [e0, hr]; omega
  | ⟨1, _⟩ => show win0_14.index t 1 * 2 + 1 * c'.val = c'.val; rw [e1]; omega

/-- WHAT POINT `t` WRITES BACK is block `t` of the network's output for the whole batch: row `g` of the block is the
    output for graph pair `8 t + g`, whose features, adjacencies and node counts are rows `g` of the point's input
    blocks, the weights and biases being whole at every point. -/
theorem flushed_eq (c : Dev nD) (t : Fin cfg0.N) :
    (dats m 0 c).flushed 14 t
      = ((cfg0.win 14).blk t).view.read (Elt Ideal) (Cert.Gnn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [Cert.KernelIdeal.Value.flushed14]
  funext y
  obtain ⟨g, c', rfl⟩ : ∃ (g : Fin 8) (c' : Fin 2), y = (ix2 g c' : S8x2.Idx) := ⟨y 0, y 1, eq_ix2 y⟩
  have hN : t.val < 8 := by have := t.isLt; have h8 : cfg0.N = 8 := N_0; omega
  have hg : g.val < 8 := g.isLt
  let r : Fin 64 := ⟨8 * t.val + g.val, by omega⟩
  have hr : r.val = 8 * t.val + g.val := rfl
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 g c')
    = Cert.Gnn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (((cfg0.win 14).blk t).view.emb (ix2 g c' : S8x2.Idx))
  rw [out_emb t g c' r hr, Cert.Gnn.Ker.block_value]
  show Cert.Gnn.kOut _ _ _ _ c' = Cert.Gnn.kOut _ _ _ _ c'
  have w6 := blk6_eq m c t
  have w8 := blk8_eq m c t
  have w10 := blk10_eq m c t
  have w12 := blk12_eq m c t
  have b7 : (fun d => (iblk m c 7 t : Vec Ideal S1x128 .f32) (ix2 (0 : Fin 1) d)) = Cert.Gnn.vec1 (m ((c : Thread nD τ).loc main_arg7)) :=
    funext fun d => blk7_apply m c t d
  have b9 : (fun d => (iblk m c 9 t : Vec Ideal S1x128 .f32) (ix2 (0 : Fin 1) d)) = Cert.Gnn.vec1 (m ((c : Thread nD τ).loc main_arg9)) :=
    funext fun d => blk9_apply m c t d
  have b11 : (fun d => (iblk m c 11 t : Vec Ideal S1x128 .f32) (ix2 (0 : Fin 1) d)) = Cert.Gnn.vec1 (m ((c : Thread nD τ).loc main_arg11)) :=
    funext fun d => blk11_apply m c t d
  have b13 : (fun d => (iblk m c 13 t : Vec Ideal S1x2 .f32) (ix2 (0 : Fin 1) d)) = Cert.Gnn.vec1 (m ((c : Thread nD τ).loc main_arg13)) :=
    funext fun d => blk13_apply m c t d
  have f0 : (fun i j => (iblk m c 0 t : Vec Ideal S8x128x128 .f32) (ix3 g i j)) = Cert.Gnn.slab (m ((c : Thread nD τ).loc main_arg0)) r :=
    funext fun i => funext fun j => blk0_apply m c t (ix3 g i j) (ix3 r i j) hr rfl rfl
  have f1 : (fun i j => (iblk m c 1 t : Vec Ideal S8x128x128 .f32) (ix3 g i j)) = Cert.Gnn.slab (m ((c : Thread nD τ).loc main_arg1)) r :=
    funext fun i => funext fun j => blk1_apply m c t (ix3 g i j) (ix3 r i j) hr rfl rfl
  have f2 : (fun i j => (iblk m c 2 t : Vec Ideal S8x128x128 .f32) (ix3 g i j)) = Cert.Gnn.slab (m ((c : Thread nD τ).loc main_arg2)) r :=
    funext fun i => funext fun j => blk2_apply m c t (ix3 g i j) (ix3 r i j) hr rfl rfl
  have f3 : (fun i j => (iblk m c 3 t : Vec Ideal S8x128x128 .f32) (ix3 g i j)) = Cert.Gnn.slab (m ((c : Thread nD τ).loc main_arg3)) r :=
    funext fun i => funext fun j => blk3_apply m c t (ix3 g i j) (ix3 r i j) hr rfl rfl
  have s4 : ((iblk m c 4 t : Vec Ideal S8x1 .i32) (ix2 g (0 : Fin 1))).toInt = Cert.Gnn.cnt (m ((c : Thread nD τ).loc main_arg4)) r :=
    congrArg BitVec.toInt (blk4_apply m c t g r hr)
  have s5 : ((iblk m c 5 t : Vec Ideal S8x1 .i32) (ix2 g (0 : Fin 1))).toInt = Cert.Gnn.cnt (m ((c : Thread nD τ).loc main_arg5)) r :=
    congrArg BitVec.toInt (blk5_apply m c t g r hr)
  rw [w6, w8, w10, w12, b7, b9, b11, b13, f0, f1, f2, f3, s4, s5]

/-- An index of the output array is in point `t`'s block iff each coordinate is in the block's range on its axis. -/
theorem mem_blk (t : Fin cfg0.N) (i : S64x2.Idx) :
    i ∈ ((cfg0.win 14).blk t).view.set
      ↔ ∀ a : Fin 2, win0_14.index t a * S8x2.size a ≤ (i a).val ∧ (i a).val < win0_14.index t a * S8x2.size a + S8x2.size a := by
  show i ∈ ((View.whole main_v6).slice (win0_14.rect t)).set ↔ _
  rw [View.set_slice_whole, Rect.mem_set_unit]
  exact Iff.rfl

/-- Every row of the output array lies in some point's block: row `r` in the block of point `r / 8`. -/
theorem cover (i : S64x2.Idx) :
    ∃ t : Fin cfg0.N, (cfg0.win 14).flush t = true ∧ i ∈ ((cfg0.win 14).blk t).view.set := by
  have hi0 : (i 0).val < 64 := (i 0).isLt
  have hi1 : (i 1).val < 2 := (i 1).isLt
  have h8 : cfg0.N = 8 := N_0
  let t : Fin cfg0.N := ⟨(i 0).val / 8, by omega⟩
  have ht : t.val = (i 0).val / 8 := rfl
  obtain ⟨-, -, -, -, -, -, -, -, -, -, -, -, -, -, e0, e1⟩ := idx_facts t
  refine ⟨t, flush0_14 t, ?_⟩
  rw [mem_blk]
  intro a
  match a with
  | ⟨0, _⟩ =>
    show win0_14.index t (0 : Fin 2) * 8 ≤ (i 0).val ∧ (i 0).val < win0_14.index t (0 : Fin 2) * 8 + 8
    rw [e0, ht]; omega
  | ⟨1, _⟩ =>
    show win0_14.index t (1 : Fin 2) * 2 ≤ (i 1).val ∧ (i 1).val < win0_14.index t (1 : Fin 2) * 2 + 2
    rw [e1]; omega

/-- THE OUTPUT ARRAY after the run is the network's output for the whole batch, in the row-masked arrangement, of the
    fourteen arguments as launched. -/
theorem final (c : Dev nD) :
    (dats m 0 c).arrAt 14 cfg0.N = Cert.Gnn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (dats m 0 c).arrAt_eq_of_cover 14 (Cert.Gnn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (fun t _ => flushed_eq m c t) cover

/-- The run, read: the result buffer holds the network's output for the whole batch, the arguments are unchanged. -/
theorem run : θ_run defs (onTc (τ := τ) (main (F := Ideal))) ⟨m, fun _ => 0, ρ⟩ fun r => ∀ c : Dev nD,
      r.2.mem ((c : Thread nD τ).loc main_v6) = Cert.Gnn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Cert.KernelIdeal.Value.run_blocks m ρ)

end Cert.Gnn.KerValue

end
-- ==== Proof.RefIsSpec.lean ====
/-
  The reference program computes the adjacency-masked arrangement of the graph-pair network.

  Each operation of the program is read at one index. The compare-and-convert of the slot numbers against the graph's
  node count is the node mask; the products with its broadcasts are the masked features and the adjacency masked on
  rows and columns; every contraction is a sum over one coordinate of products of the two operands' entries; the
  broadcast biases are added entry by entry; a maximum against the zero constant is the relu; the sum over the node
  slots starts from the zero constant and is divided by the node count, raised to at least one. The second graph of
  the pair goes through the very same operations on its own arguments, so its embedding is the same function of them.
  The concatenation puts the first embedding in entries 0 to 127 and the second in entries 128 to 255, and the last
  contraction and bias give entry `(b, c)` of the result.
-/
import proofs.«138933_g17179869476_cont_week2b_1059_28_alg».proof.Proof.Gen.ReferenceIdeal.Read
import proofs.«138933_g17179869476_cont_week2b_1059_28_alg».proof.Proof.Spec
import Idealize.ShloMosaic.Lib.ValueIdx
import Idealize.ShloMosaic.Lib.Pipeline.Value
import Idealize.ShloMosaic.PureOps.Ideal.Laws

noncomputable section

namespace Cert.Gnn.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The 32-bit word of a slot number below 128 reads, as a signed integer, the slot number. -/
theorem toInt_ofNat_slot (n : Fin 128) : (BitVec.ofNat 32 n.val).toInt = (n.val : ℤ) := by
  have := n.isLt
  rw [BitVec.toInt_eq_toNat_of_lt (by rw [BitVec.toNat_ofNat]; omega), BitVec.toNat_ofNat]
  omega

/-- The word `0x3F800000` is the number one. -/
theorem one_f32 : Ideal.ofBits .f32 0x3F800000#32 = 1 := IdealRules.sign_bit.ideal_onePat .f32

/-- The compare-and-convert stage is the node mask: slot `n` of graph `b` holds 1 when `n` is below the graph's
    node count and 0 otherwise. -/
theorem mask_eq (x4 : (⟨S64, .i32⟩ : BufTy).Contents (Elt Ideal)) (b : Fin 64) (n : Fin 128) :
    val_main_v6 (F := Ideal) x4 (ix2 b n) = mask (cnt x4 b) n := by
  rw [val_main_v6_apply, val_main_v5_apply, val_main_v3_apply, val_main_v1_apply, val_main_v0_apply,
    val_main_v4_apply, val_main_v2_apply]
  have e : idx_main_v2 (idx_main_v4 (ix2 b n)) = ix1 b := funext fun a => Fin.ext (by match a with | ⟨0, _⟩ => rfl)
  rw [e]
  show ((((IntOp.cmpi .slt (BitVec.ofNat 32 n.val) (x4 (ix1 b))).toNat : ℝ)) : EReal) = _
  unfold IntOp.cmpi mask cnt
  simp only [BitVec.slt_eq_decide, toInt_ofNat_slot]
  by_cases h : (n.val : ℤ) < (x4 (ix1 b)).toInt
  · rw [if_pos h]; simp [h]
  · rw [if_neg h]; simp [h]

section Graph

variable (x0 x1 : (⟨S64x128x128, .f32⟩ : BufTy).Contents (Elt Ideal)) (x4 : (⟨S64, .i32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))

/-- The features times the row mask. -/
theorem feats_eq (b : Fin 64) (n k : Fin 128) :
    val_main_v9 (F := Ideal) x0 x4 (ix3 b n k) = rX (slab x0 b) (cnt x4 b) n k := by
  rw [val_main_v9_apply, val_main_v8_apply, val_main_v7_apply]
  have e : idx_main_v7 (idx_main_v8 (ix3 b n k)) = ix2 b n := funext fun a => Fin.ext (by match a with | ⟨0, _⟩ => rfl | ⟨1, _⟩ => rfl)
  rw [e, mask_eq]
  rfl

/-- The adjacency times the row mask times the column mask. -/
theorem adj_eq (b : Fin 64) (i j : Fin 128) :
    val_main_v15 (F := Ideal) x1 x4 (ix3 b i j) = rA (slab x1 b) (cnt x4 b) i j := by
  rw [val_main_v15_apply, val_main_v12_apply, val_main_v11_apply, val_main_v10_apply, val_main_v14_apply,
    val_main_v13_apply]
  have e1 : idx_main_v10 (idx_main_v11 (ix3 b i j)) = ix2 b i := funext fun a => Fin.ext (by match a with | ⟨0, _⟩ => rfl | ⟨1, _⟩ => rfl)
  have e2 : idx_main_v13 (idx_main_v14 (ix3 b i j)) = ix2 b j := funext fun a => Fin.ext (by match a with | ⟨0, _⟩ => rfl | ⟨1, _⟩ => rfl)
  rw [e1, e2, mask_eq, mask_eq]
  rfl

/-- The first dense layer: masked features against the first weight matrix, plus the bias. -/
theorem dense1_eq (b : Fin 64) (n d : Fin 128) :
    val_main_v19 (F := Ideal) x0 x4 x6 x7 (ix3 b n d)
      = rH0 (mat2 x6) (vec1 x7) (slab x0 b) (cnt x4 b) n d := by
  rw [val_main_v19_apply, val_main_v16_apply, val_main_v18_apply, val_main_v17_apply]
  have e : idx_main_v17 (idx_main_v18 (ix3 b n d)) = ix1 d := funext fun a => Fin.ext (by match a with | ⟨0, _⟩ => rfl)
  have s : ∀ k : Fin 128, val_main_v9 (F := Ideal) x0 x4 (lidx_main_v16 (ix3 b n d) k) * x6 (ridx_main_v16 (ix3 b n d) k)
      = rX (slab x0 b) (cnt x4 b) n k * mat2 x6 k d := fun k => by
    have el : lidx_main_v16 (ix3 b n d) k = ix3 b n k := funext fun a => Fin.ext (by match a with | ⟨0, _⟩ => rfl | ⟨1, _⟩ => rfl | ⟨2, _⟩ => rfl)
    have er : ridx_main_v16 (ix3 b n d) k = ix2 k d := funext fun a => Fin.ext (by match a with | ⟨0, _⟩ => rfl | ⟨1, _⟩ => rfl)
    rw [el, er, feats_eq]
    rfl
  rw [e, Finset.sum_congr rfl fun k _ => s k]
  rfl

/-- The first layer's output: aggregate over the masked adjacency, relu, row mask. -/
theorem layer1_eq (b : Fin 64) (i d : Fin 128) :
    val_main_v24 (F := Ideal) x0 x1 x4 x6 x7 (ix3 b i d)
      = rH1 (mat2 x6) (vec1 x7) (slab x0 b) (slab x1 b) (cnt x4 b) i d := by
  rw [val_main_v24_apply, val_main_v21_apply, val_main_v20_apply, val_main_call0_v0_apply, val_main_call0_cst_apply,
    val_main_v23_apply, val_main_v22_apply]
  have e : idx_main_v22 (idx_main_v23 (ix3 b i d)) = ix2 b i := funext fun a => Fin.ext (by match a with | ⟨0, _⟩ => rfl | ⟨1, _⟩ => rfl)
  have s : ∀ k : Fin 128, val_main_v15 (F := Ideal) x1 x4 (lidx_main_v20 (ix3 b i d) k)
        * val_main_v19 (F := Ideal) x0 x4 x6 x7 (ridx_main_v20 (ix3 b i d) k)
      = rA (slab x1 b) (cnt x4 b) i k * rH0 (mat2 x6) (vec1 x7) (slab x0 b) (cnt x4 b) k d := fun k => by
    have el : lidx_main_v20 (ix3 b i d) k = ix3 b i k := funext fun a => Fin.ext (by match a with | ⟨0, _⟩ => rfl | ⟨1, _⟩ => rfl | ⟨2, _⟩ => rfl)
    have er : ridx_main_v20 (ix3 b i d) k = ix3 b k d := funext fun a => Fin.ext (by match a with | ⟨0, _⟩ => rfl | ⟨1, _⟩ => rfl | ⟨2, _⟩ => rfl)
    rw [el, er, adj_eq, dense1_eq]
  rw [e, mask_eq, Finset.sum_congr rfl fun k _ => s k, Ideal.ofBits_def, Ideal.ofBits_zero_f32]
  rfl

/-- The second dense layer. -/
theorem dense2_eq (b : Fin 64) (n d : Fin 128) :
    val_main_v28 (F := Ideal) x0 x1 x4 x6 x7 x8 x9 (ix3 b n d)
      = rH2 (mat2 x6) (vec1 x7) (mat2 x8) (vec1 x9) (slab x0 b) (slab x1 b) (cnt x4 b) n d := by
  rw [val_main_v28_apply, val_main_v25_apply, val_main_v27_apply, val_main_v26_apply]
  have e : idx_main_v26 (idx_main_v27 (ix3 b n d)) = ix1 d := funext fun a => Fin.ext (by match a with | ⟨0, _⟩ => rfl)
  have s : ∀ k : Fin 128, val_main_v24 (F := Ideal) x0 x1 x4 x6 x7 (lidx_main_v25 (ix3 b n d) k) * x8 (ridx_main_v25 (ix3 b n d) k)
      = rH1 (mat2 x6) (vec1 x7) (slab x0 b) (slab x1 b) (cnt x4 b) n k * mat2 x8 k d := fun k => by
    have el : lidx_main_v25 (ix3 b n d) k = ix3 b n k := funext fun a => Fin.ext (by match a with | ⟨0, _⟩ => rfl | ⟨1, _⟩ => rfl | ⟨2, _⟩ => rfl)
    have er : ridx_main_v25 (ix3 b n d) k = ix2 k d := funext fun a => Fin.ext (by match a with | ⟨0, _⟩ => rfl | ⟨1, _⟩ => rfl)
    rw [el, er, layer1_eq]
    rfl
  rw [e, Finset.sum_congr rfl fun k _ => s k]
  rfl

/-- The second layer's output. -/
theorem layer2_eq (b : Fin 64) (i d : Fin 128) :
    val_main_v33 (F := Ideal) x0 x1 x4 x6 x7 x8 x9 (ix3 b i d)
      = rH3 (mat2 x6) (vec1 x7) (mat2 x8) (vec1 x9) (slab x0 b) (slab x1 b) (cnt x4 b) i d := by
  rw [val_main_v33_apply, val_main_v30_apply, val_main_v29_apply, val_main_call1_v0_apply, val_main_call1_cst_apply,
    val_main_v32_apply, val_main_v31_apply]
  have e : idx_main_v31 (idx_main_v32 (ix3 b i d)) = ix2 b i := funext fun a => Fin.ext (by match a with | ⟨0, _⟩ => rfl | ⟨1, _⟩ => rfl)
  have s : ∀ k : Fin 128, val_main_v15 (F := Ideal) x1 x4 (lidx_main_v29 (ix3 b i d) k)
        * val_main_v28 (F := Ideal) x0 x1 x4 x6 x7 x8 x9 (ridx_main_v29 (ix3 b i d) k)
      = rA (slab x1 b) (cnt x4 b) i k
        * rH2 (mat2 x6) (vec1 x7) (mat2 x8) (vec1 x9) (slab x0 b) (slab x1 b) (cnt x4 b) k d := fun k => by
    have el : lidx_main_v29 (ix3 b i d) k = ix3 b i k := funext fun a => Fin.ext (by match a with | ⟨0, _⟩ => rfl | ⟨1, _⟩ => rfl | ⟨2, _⟩ => rfl)
    have er : ridx_main_v29 (ix3 b i d) k = ix3 b k d := funext fun a => Fin.ext (by match a with | ⟨0, _⟩ => rfl | ⟨1, _⟩ => rfl | ⟨2, _⟩ => rfl)
    rw [el, er, adj_eq, dense2_eq]
  rw [e, mask_eq, Finset.sum_congr rfl fun k _ => s k, Ideal.ofBits_def, Ideal.ofBits_zero_f32]
  rfl

/-- The aggregator applied per node, then the row mask. -/
theorem agg_eq (b : Fin 64) (i d : Fin 128) :
    val_main_v40 (F := Ideal) x0 x1 x4 x6 x7 x8 x9 x10 x11 (ix3 b i d)
      = rG (mat2 x6) (vec1 x7) (mat2 x8) (vec1 x9) (mat2 x10) (vec1 x11) (slab x0 b) (slab x1 b) (cnt x4 b) i d := by
  rw [val_main_v40_apply, val_main_v37_apply, val_main_v34_apply, val_main_v36_apply, val_main_v35_apply,
    val_main_v39_apply, val_main_v38_apply]
  have e : idx_main_v35 (idx_main_v36 (ix3 b i d)) = ix1 d := funext fun a => Fin.ext (by match a with | ⟨0, _⟩ => rfl)
  have em : idx_main_v38 (idx_main_v39 (ix3 b i d)) = ix2 b i := funext fun a => Fin.ext (by match a with | ⟨0, _⟩ => rfl | ⟨1, _⟩ => rfl)
  have s : ∀ k : Fin 128, val_main_v33 (F := Ideal) x0 x1 x4 x6 x7 x8 x9 (lidx_main_v34 (ix3 b i d) k) * x10 (ridx_main_v34 (ix3 b i d) k)
      = rH3 (mat2 x6) (vec1 x7) (mat2 x8) (vec1 x9) (slab x0 b) (slab x1 b) (cnt x4 b) i k * mat2 x10 k d := fun k => by
    have el : lidx_main_v34 (ix3 b i d) k = ix3 b i k := funext fun a => Fin.ext (by match a with | ⟨0, _⟩ => rfl | ⟨1, _⟩ => rfl | ⟨2, _⟩ => rfl)
    have er : ridx_main_v34 (ix3 b i d) k = ix2 k d := funext fun a => Fin.ext (by match a with | ⟨0, _⟩ => rfl | ⟨1, _⟩ => rfl)
    rw [el, er, layer2_eq]
    rfl
  rw [e, em, mask_eq, Finset.sum_congr rfl fun k _ => s k]
  rfl

/-- The graph's embedding: the sum of the masked per-node aggregates over the node slots, divided by the node count
    (at least one). -/
theorem embed_eq (b : Fin 64) (d : Fin 128) :
    val_main_v47 (F := Ideal) x0 x1 x4 x6 x7 x8 x9 x10 x11 (ix2 b d)
      = rE (mat2 x6) (vec1 x7) (mat2 x8) (vec1 x9) (mat2 x10) (vec1 x11) (slab x0 b) (slab x1 b) (cnt x4 b) d := by
  rw [val_main_v47_apply, val_main_v45_apply, val_main_cst_0_apply, val_main_v46_apply, val_main_v44_apply,
    val_main_v43_apply, val_main_v41_apply, val_main_v42_apply, val_main_cst_apply]
  have e : idx_main_v44 (idx_main_v46 (ix2 b d)) = ix1 b := funext fun a => Fin.ext (by match a with | ⟨0, _⟩ => rfl)
  have s : ∀ k : Fin 128, val_main_v40 (F := Ideal) x0 x1 x4 x6 x7 x8 x9 x10 x11 (idx_main_v45 (ix2 b d) k)
      = rG (mat2 x6) (vec1 x7) (mat2 x8) (vec1 x9) (mat2 x10) (vec1 x11) (slab x0 b) (slab x1 b) (cnt x4 b) k d := fun k => by
    have el : idx_main_v45 (ix2 b d) k = ix3 b k d := funext fun a => Fin.ext (by match a with | ⟨0, _⟩ => rfl | ⟨1, _⟩ => rfl | ⟨2, _⟩ => rfl)
    rw [el, agg_eq]
  rw [e, Finset.sum_congr rfl fun k _ => s k, Ideal.ofBits_def, Ideal.ofBits_def, Ideal.ofBits_zero_f32, one_f32]
  rfl

end Graph

/-- The second graph of the pair goes through the same operations as the first, on its own arguments. -/
theorem second_eq (x2 x3 : (⟨S64x128x128, .f32⟩ : BufTy).Contents (Elt Ideal)) (x5 : (⟨S64, .i32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal)) :
    val_main_v95 (F := Ideal) x2 x3 x5 x6 x7 x8 x9 x10 x11
      = val_main_v47 (F := Ideal) x2 x3 x5 x6 x7 x8 x9 x10 x11 := rfl

/-- The two embeddings laid side by side: entry `k` of pair `b`'s joined vector is the first graph's embedding for
    `k` below 128 and the second graph's, at `k - 128`, from there on. -/
theorem joined_eq (x0 x1 x2 x3 : (⟨S64x128x128, .f32⟩ : BufTy).Contents (Elt Ideal)) (x4 x5 : (⟨S64, .i32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (b : Fin 64) (k : Fin 256) :
    val_main_v96 (F := Ideal) x0 x1 x2 x3 x4 x5 x6 x7 x8 x9 x10 x11 (ix2 b k)
      = join (rE (mat2 x6) (vec1 x7) (mat2 x8) (vec1 x9) (mat2 x10) (vec1 x11) (slab x0 b) (slab x1 b) (cnt x4 b))
          (rE (mat2 x6) (vec1 x7) (mat2 x8) (vec1 x9) (mat2 x10) (vec1 x11) (slab x2 b) (slab x3 b) (cnt x5 b)) k := by
  unfold val_main_v96 join
  by_cases h : k.val < 128
  · rw [dif_pos h, concatenate_pair_apply_left (t := S64x256) (s₁ := S64x128) (s₂ := S64x128) 1 _ _ _ (ix2 b k) rfl
      (ix2 b (⟨k.val, h⟩ : Fin 128)) (fun a => by match a with | ⟨0, _⟩ => rfl | ⟨1, _⟩ => rfl), embed_eq]
  · have h2 : k.val - 128 < 128 := by have := k.isLt; omega
    rw [dif_neg h, concatenate_pair_apply_right (t := S64x256) (s₁ := S64x128) (s₂ := S64x128) 1 _ _ _ (ix2 b k) rfl rfl
      (ix2 b (⟨k.val - 128, h2⟩ : Fin 128))
      (fun a ha => by
        match a, ha with
        | ⟨0, _⟩, _ => rfl
        | ⟨1, _⟩, ha => exact absurd rfl ha)
      (by show k.val - 128 + 128 = k.val; omega), second_eq, embed_eq]

/-- THE REFERENCE, READ INDEX BY INDEX, IS THE ADJACENCY-MASKED ARRANGEMENT: entry `(b, c)` of the program's result
    is the joined pair of embeddings against column `c` of the last weight matrix, plus the bias. -/
theorem ref_is_GR (x0 x1 x2 x3 : (⟨S64x128x128, .f32⟩ : BufTy).Contents (Elt Ideal)) (x4 x5 : (⟨S64, .i32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S256x2, .f32⟩ : BufTy).Contents (Elt Ideal)) (x13 : (⟨S2, .f32⟩ : BufTy).Contents (Elt Ideal)) :
    val_main_v100 (F := Ideal) x0 x1 x2 x3 x4 x5 x6 x7 x8 x9 x10 x11 x12 x13
      = GR x0 x1 x2 x3 x4 x5 x6 x7 x8 x9 x10 x11 x12 x13 := by
  funext i
  obtain ⟨b, c, rfl⟩ : ∃ (b : Fin 64) (c : Fin 2), i = ix2 b c := ⟨i 0, i 1, eq_ix2 i⟩
  rw [val_main_v100_apply, val_main_v97_apply, val_main_v99_apply, val_main_v98_apply]
  have e : idx_main_v98 (idx_main_v99 (ix2 b c)) = ix1 c := funext fun a => Fin.ext (by match a with | ⟨0, _⟩ => rfl)
  have s : ∀ k : Fin 256,
      val_main_v96 (F := Ideal) x0 x1 x2 x3 x4 x5 x6 x7 x8 x9 x10 x11 (lidx_main_v97 (ix2 b c) k)
        * x12 (ridx_main_v97 (ix2 b c) k)
      = join (rE (mat2 x6) (vec1 x7) (mat2 x8) (vec1 x9) (mat2 x10) (vec1 x11) (slab x0 b) (slab x1 b) (cnt x4 b))
          (rE (mat2 x6) (vec1 x7) (mat2 x8) (vec1 x9) (mat2 x10) (vec1 x11) (slab x2 b) (slab x3 b) (cnt x5 b)) k * mat2 x12 k c := fun k => by
    have el : lidx_main_v97 (ix2 b c) k = ix2 b k := funext fun a => Fin.ext (by match a with | ⟨0, _⟩ => rfl | ⟨1, _⟩ => rfl)
    have er : ridx_main_v97 (ix2 b c) k = ix2 k c := funext fun a => Fin.ext (by match a with | ⟨0, _⟩ => rfl | ⟨1, _⟩ => rfl)
    rw [el, er, joined_eq]
    rfl
  rw [e, Finset.sum_congr rfl fun k _ => s k]
  rfl

/-- The same for the result term of the reference's run, whose arguments are the buffers the run finds @main's
    fourteen arguments in. -/
theorem run_is_GR (m : (ℓ : Loc nD τ sig) → Buf (Elt Ideal) ℓ) (c : Dev nD) :
    Cert.ReferenceIdeal.Value.res_main_v100 m c
      = GR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) := by
  rw [val_main_v100_eq, ref_is_GR]

end Cert.Gnn.RefValue

end
-- ==== Proof.SpecLaw.lean ====
/-
  The two arrangements of the graph-pair network are the same function.

  Every step rests on three facts about the extended reals, none of which needs any entry to be finite:
  a mask entry is 0 or 1; 0 · x = x · 0 = 0 and 1 · x = x · 1 = x for every extended real x; and
  multiplication distributes over a sum of NON-NEGATIVE terms.  The last one is needed exactly once, where the
  sum over nodes is moved across the aggregator's matrix: the summands there are relu outputs times mask entries,
  hence non-negative.
-/
import proofs.«138933_g17179869476_cont_week2b_1059_28_alg».proof.Proof.Spec

noncomputable section

namespace Cert.Gnn

/-! ### The mask -/

/-- A mask entry is 0 or 1. -/
theorem mask_cases (s : ℤ) (i : Fin 128) : mask s i = 0 ∨ mask s i = 1 := by
  unfold mask
  by_cases h : (i.val : ℤ) < s
  · right; rw [if_pos h]
  · left; rw [if_neg h]

/-- A mask entry is non-negative. -/
theorem mask_nonneg (s : ℤ) (i : Fin 128) : 0 ≤ mask s i := by
  rcases mask_cases s i with h | h
  · exact le_of_eq h.symm
  · rw [h]; exact zero_le_one

/-- A mask entry that does not depend on the summation index moves out of a sum:
both sides are 0 when it is 0, and it disappears from both sides when it is 1. -/
theorem mask_mul_sum {n : ℕ} (s : ℤ) (i : Fin 128) (g : Fin n → EReal) :
    ∑ j, mask s i * g j = mask s i * ∑ j, g j := by
  rcases mask_cases s i with h | h
  · simp only [h, zero_mul, Finset.sum_const_zero]
  · simp only [h, one_mul]

/-- Masking before and after the relu is the same as masking once after it. -/
theorem relu_mask (s : ℤ) (i : Fin 128) (y : EReal) :
    max (mask s i * y) 0 * mask s i = mask s i * max y 0 := by
  rcases mask_cases s i with h | h
  · simp only [h, zero_mul, mul_zero]
  · simp only [h, one_mul, mul_one]

/-! ### Distributivity over non-negative sums, and the number of unmasked slots -/

/-- A finite sum of non-negative extended reals times a constant is the sum of the products. -/
theorem sum_mul_of_nonneg {ι : Type} (t : Finset ι) (x : ι → EReal) (c : EReal) (hx : ∀ i, 0 ≤ x i) :
    (∑ i ∈ t, x i) * c = ∑ i ∈ t, x i * c := by
  classical
  induction t using Finset.induction_on with
  | empty => simp only [Finset.sum_empty, zero_mul]
  | insert j t hj ih =>
    rw [Finset.sum_insert hj, Finset.sum_insert hj,
      EReal.right_distrib_of_nonneg (hx j) (Finset.sum_nonneg fun i _ => hx i), ih]

/-- The masked sum of a constant is the node count times the constant: exactly s of the 128 slots
have index below s when 0 ≤ s ≤ 128. -/
theorem sum_mask_mul (s : ℤ) (h0 : 0 ≤ s) (h1 : s ≤ 128) (c : EReal) :
    ∑ i : Fin 128, mask s i * c = sz s * c := by
  have hm : ∀ i : Fin 128, mask s i * c = if i.val < s.toNat then c else 0 := by
    intro i
    unfold mask
    by_cases h : (i.val : ℤ) < s
    · rw [if_pos h, if_pos (by omega), one_mul]
    · rw [if_neg h, if_neg (by omega), zero_mul]
  have hs : ((s.toNat : ℕ) : ℝ) = (s : ℝ) := by
    exact_mod_cast Int.toNat_of_nonneg h0
  simp only [hm]
  rw [← Finset.sum_filter, Finset.sum_const, EReal.nsmul_eq_mul, Fin.card_filter_val_lt,
    min_eq_right (by omega : s.toNat ≤ 128)]
  unfold sz
  rw [← hs, EReal.coe_coe_eq_natCast]

section Graph

variable (W1 : Mat 128 128) (b1 : Row 128) (W2 : Mat 128 128) (b2 : Row 128) (Wa : Mat 128 128) (ba : Row 128)
variable (f a : Mat 128 128) (s : ℤ)

/-! ### First layer -/

/-- One term of the first aggregation.  If slot j is masked both sides vanish; if not, the masked features and
the column mask of the adjacency are the plain ones, and only the row mask of slot i remains. -/
theorem rA_mul_rH0 (i j d : Fin 128) :
    rA a s i j * rH0 W1 b1 f s j d = mask s i * (a i j * kH W1 b1 f s j d) := by
  unfold rA rH0 rX kH
  rcases mask_cases s j with hj | hj <;> rcases mask_cases s i with hi | hi <;>
    simp only [hi, hj, mul_zero, zero_mul, mul_one, one_mul]

/-- The first layer's output in the adjacency-masked arrangement is the row-masked one times the row mask. -/
theorem rH1_eq (i d : Fin 128) :
    rH1 W1 b1 f a s i d = mask s i * kT1 W1 b1 f a s i d := by
  unfold rH1 kT1
  simp only [rA_mul_rH0]
  rw [mask_mul_sum, relu_mask]

/-! ### Second layer -/

/-- One term of the second aggregation, by the same two-case argument, using the first layer's law at slot j. -/
theorem rA_mul_rH2 (i j d : Fin 128) :
    rA a s i j * rH2 W1 b1 W2 b2 f a s j d = mask s i * (a i j * kU W1 b1 W2 b2 f a s j d) := by
  unfold rA rH2 kU
  simp only [rH1_eq]
  rcases mask_cases s j with hj | hj <;> rcases mask_cases s i with hi | hi <;>
    simp only [hi, hj, mul_zero, zero_mul, mul_one, one_mul]

/-- The second layer's output in the adjacency-masked arrangement is the row-masked one times the row mask. -/
theorem rH3_eq (i d : Fin 128) :
    rH3 W1 b1 W2 b2 f a s i d = mask s i * kT2 W1 b1 W2 b2 f a s i d := by
  unfold rH3 kT2
  simp only [rA_mul_rH2]
  rw [mask_mul_sum, relu_mask]

/-! ### The aggregator and the sum over nodes -/

/-- The masked per-node aggregate, with the mask carried inside onto each summand and onto the bias. -/
theorem rG_eq (i d : Fin 128) :
    rG W1 b1 W2 b2 Wa ba f a s i d
      = ∑ k, (mask s i * kT2 W1 b1 W2 b2 f a s i k) * Wa k d + mask s i * ba d := by
  unfold rG
  simp only [rH3_eq]
  rcases mask_cases s i with h | h
  · simp only [h, zero_mul, mul_zero, Finset.sum_const_zero, add_zero]
  · simp only [h, one_mul, mul_one]

/-- A masked relu output is non-negative. -/
theorem mask_mul_kT2_nonneg (i k : Fin 128) : 0 ≤ mask s i * kT2 W1 b1 W2 b2 f a s i k := by
  rcases mask_cases s i with h | h
  · simp only [h, zero_mul, le_refl]
  · rw [h, one_mul]; unfold kT2; exact le_max_right _ _

/-- The sum over nodes of the masked per-node aggregates: the node sum moves across the aggregator's matrix
(the summands being non-negative) and the bias is counted once per unmasked slot. -/
theorem sum_rG_eq (d : Fin 128) (h0 : 0 ≤ s) (h1 : s ≤ 128) :
    ∑ i, rG W1 b1 W2 b2 Wa ba f a s i d
      = ∑ k, kV W1 b1 W2 b2 f a s k * Wa k d + sz s * ba d := by
  simp only [rG_eq]
  rw [Finset.sum_add_distrib, Finset.sum_comm, sum_mask_mul s h0 h1]
  congr 1
  apply Finset.sum_congr rfl
  intro k _
  unfold kV
  rw [sum_mul_of_nonneg]
  intro i
  exact mask_mul_kT2_nonneg W1 b1 W2 b2 f a s i k

end Graph

/-- The two arrangements give the same graph embedding whenever the node count fits the 128 slots. -/
theorem rE_eq_kE (W1 : Mat 128 128) (b1 : Row 128) (W2 : Mat 128 128) (b2 : Row 128) (Wa : Mat 128 128) (ba : Row 128)
    (f a : Mat 128 128) (s : ℤ) (h0 : 0 ≤ s) (h1 : s ≤ 128) :
    rE W1 b1 W2 b2 Wa ba f a s = kE W1 b1 W2 b2 Wa ba f a s := by
  funext d
  unfold rE kE
  rw [zero_add, sum_rG_eq W1 b1 W2 b2 Wa ba f a s d h0 h1]

/-! ### The last dense layer -/

/-- The joined vector on the upper half is the first embedding. -/
theorem join_lo (e1 e2 : Row 128) (k : Fin 128) : join e1 e2 (lo k) = e1 k := by
  unfold join lo
  rw [dif_pos k.isLt]

/-- The joined vector on the lower half is the second embedding. -/
theorem join_hi (e1 e2 : Row 128) (k : Fin 128) : join e1 e2 (hi k) = e2 k := by
  unfold join hi
  rw [dif_neg (by omega : ¬ (128 + k.val < 128))]
  congr 1
  apply Fin.ext
  show 128 + k.val - 128 = k.val
  omega

/-- The sum over the 256 joined entries splits into the sums over its two halves. -/
theorem rOut_eq_kOut (e1 e2 : Row 128) (Wc : Mat 256 2) (bc : Row 2) : rOut e1 e2 Wc bc = kOut e1 e2 Wc bc := by
  funext c
  unfold rOut kOut
  have h := Fin.sum_univ_add (a := 128) (b := 128) (fun k : Fin (128 + 128) => join e1 e2 k * Wc k c)
  have hlo : ∀ k : Fin 128, (Fin.castAdd 128 k : Fin (128 + 128)) = lo k := fun _ => rfl
  have hhi : ∀ k : Fin 128, (Fin.natAdd 128 k : Fin (128 + 128)) = hi k := fun _ => rfl
  simp only [hlo, hhi, join_lo, join_hi] at h
  exact congrArg (fun t => t + bc c) h

/-! ### The whole batch -/

/-- The two arrangements give the same output for the whole batch when every node count fits the 128 slots. -/
theorem GR_eq_G (x0 x1 x2 x3 : S64x128x128.Idx → EReal) (s1 s2 : S64.Idx → BitVec 32)
    (W1 : S128x128.Idx → EReal) (b1 : S128.Idx → EReal) (W2 : S128x128.Idx → EReal) (b2 : S128.Idx → EReal)
    (Wa : S128x128.Idx → EReal) (ba : S128.Idx → EReal) (Wc : S256x2.Idx → EReal) (bc : S2.Idx → EReal)
    (h1 : ∀ b : Fin 64, 0 ≤ cnt s1 b ∧ cnt s1 b ≤ 128) (h2 : ∀ b : Fin 64, 0 ≤ cnt s2 b ∧ cnt s2 b ≤ 128) :
    GR x0 x1 x2 x3 s1 s2 W1 b1 W2 b2 Wa ba Wc bc = G x0 x1 x2 x3 s1 s2 W1 b1 W2 b2 Wa ba Wc bc := by
  funext i
  unfold GR G
  rw [rE_eq_kE _ _ _ _ _ _ _ _ _ (h1 (i 0)).1 (h1 (i 0)).2,
    rE_eq_kE _ _ _ _ _ _ _ _ _ (h2 (i 0)).1 (h2 (i 0)).2, rOut_eq_kOut]

end Cert.Gnn

end
-- ==== Proof.PreSizes.lean ====
/-
  The precondition's last two conjuncts, read back: every node count of either graph of every pair lies in [0, 128].

  The precondition is one bit: the conjunction ("and") of fourteen bits, one per input array.  The first twelve say that a
  float array holds only finite numbers and are not needed here.  The last two say, of each of the two arrays of 64 node
  counts, that "0 ≤ s and s ≤ 128" holds at every position: the comparisons are signed comparisons of 32-bit words with
  the constants 0 and 128 spread over the 64 positions, their two bits are joined by "and" position by position, and the
  64 resulting bits are folded by "and" starting from 1.

  A conjunction of bits is 1 only when each of them is 1; a fold by "and" from 1 that ends in 1 met only 1s; and a signed
  comparison that answers 1 is the order of the words' signed readings.  The signed readings of the words 0 and 128 are
  the integers 0 and 128.  So when the precondition's bit is 1, every count, read as a signed integer, is between 0 and 128.

  The precondition's function is written as a head and four parts, each ending in the call of the next; the lemmas below
  follow the chain from its tail (where the last bound on the second array of counts is) to its head.
-/
import proofs.«138933_g17179869476_cont_week2b_1059_28_alg».proof.Pre_finite_inputs
import proofs.«138933_g17179869476_cont_week2b_1059_28_alg».proof.Proof.Gen.Pre_finite_inputs
import proofs.«138933_g17179869476_cont_week2b_1059_28_alg».proof.Proof.Spec
import Idealize.ShloMosaic.Lib.ReduceAll
import Idealize.ShloMosaic.Lib.ValueIdx
import Idealize.ShloMosaic.PureOps.Ideal

noncomputable section

namespace Cert.Gnn.Pre

open Idealize.ShloMosaic Idealize.ShloMosaic.ValueIdx

/-- The scalar shape has exactly one index. -/
instance subsingleton_scalar_idx : Subsingleton Cert.Pre_finite_inputs.S_.Idx :=
  ⟨fun _ _ => funext fun d => d.elim0⟩

/-- A 32-bit word that tests "at least 0" and "at most 128", both signed, reads as an integer between 0 and 128. -/
theorem word_range (x : BitVec 32) (h0 : IntOp.cmpi .sge x 0#32 = 1#1) (h1 : IntOp.cmpi .sle x 128#32 = 1#1) :
    0 ≤ x.toInt ∧ x.toInt ≤ 128 := by
  rw [IntOp.cmpi_sge] at h0
  rw [IntOp.cmpi_sle] at h1
  have e0 : (0#32 : BitVec 32).toInt = 0 := by decide
  have e1 : (128#32 : BitVec 32).toInt = 128 := by decide
  rw [e0] at h0
  rw [e1] at h1
  exact ⟨h0, h1⟩

section Chain

variable [hF : Cert.Pre_finite_inputs.Facts]

/-- The tail of the chain: the bit handed in is 1, and at every position the "at least 0" bit handed in is 1 and the
    second array's count is at most 128. -/
theorem part4 (a5 : IVec Cert.Pre_finite_inputs.S64 32) (v65 : IVec Cert.Pre_finite_inputs.S_ 1)
    (v67 : IVec Cert.Pre_finite_inputs.S64 1) (j : Cert.Pre_finite_inputs.S_.Idx)
    (h : Cert.Pre_finite_inputs.fn_part4 (F := Ideal) a5 v65 v67 j = 1#1) :
    v65 j = 1#1 ∧ ∀ i, v67 i = 1#1 ∧ IntOp.cmpi .sle (a5 i) 128#32 = 1#1 := by
  unfold Cert.Pre_finite_inputs.fn_part4 at h
  dsimp only at h
  obtain ⟨h65, hr⟩ := IntOp.andi_eq_one.1 h
  refine ⟨h65, fun i => ?_⟩
  have hi := Host.reduce_andi_all _ _ _ _ j hr i
  exact IntOp.andi_eq_one.1 hi

/-- The part before it: both arrays' counts are in range at every position. -/
theorem part3 (a4 a5 : IVec Cert.Pre_finite_inputs.S64 32) (a13 : FVec Ideal Cert.Pre_finite_inputs.S2 .f32)
    (v48 : IVec Cert.Pre_finite_inputs.S_ 1) (v49 v50 : FVec Ideal Cert.Pre_finite_inputs.S256x2 .f32)
    (j : Cert.Pre_finite_inputs.S_.Idx)
    (h : Cert.Pre_finite_inputs.fn_part3 (F := Ideal) a4 a5 a13 v48 v49 v50 j = 1#1) :
    (∀ i, 0 ≤ (a4 i).toInt ∧ (a4 i).toInt ≤ 128) ∧ (∀ i, 0 ≤ (a5 i).toInt ∧ (a5 i).toInt ≤ 128) := by
  unfold Cert.Pre_finite_inputs.fn_part3 at h
  dsimp only at h
  obtain ⟨h65, h5⟩ := part4 _ _ _ j h
  obtain ⟨-, hr⟩ := IntOp.andi_eq_one.1 h65
  refine ⟨fun i => ?_, fun i => ?_⟩
  · have hi := Host.reduce_andi_all _ _ _ _ j hr i
    obtain ⟨hge, hle⟩ := IntOp.andi_eq_one.1 hi
    exact word_range _ hge hle
  · obtain ⟨hge, hle⟩ := h5 i
    exact word_range _ hge hle

/-- The second part only hands the two arrays of counts on. -/
theorem part2 (a4 a5 : IVec Cert.Pre_finite_inputs.S64 32) (a9 : FVec Ideal Cert.Pre_finite_inputs.S128 .f32)
    (a10 : FVec Ideal Cert.Pre_finite_inputs.S128x128 .f32) (a11 : FVec Ideal Cert.Pre_finite_inputs.S128 .f32)
    (a12 : FVec Ideal Cert.Pre_finite_inputs.S256x2 .f32) (a13 : FVec Ideal Cert.Pre_finite_inputs.S2 .f32)
    (v33 : IVec Cert.Pre_finite_inputs.S_ 1) (j : Cert.Pre_finite_inputs.S_.Idx)
    (h : Cert.Pre_finite_inputs.fn_part2 (F := Ideal) a4 a5 a9 a10 a11 a12 a13 v33 j = 1#1) :
    (∀ i, 0 ≤ (a4 i).toInt ∧ (a4 i).toInt ≤ 128) ∧ (∀ i, 0 ≤ (a5 i).toInt ∧ (a5 i).toInt ≤ 128) := by
  unfold Cert.Pre_finite_inputs.fn_part2 at h
  dsimp only at h
  exact part3 _ _ _ _ _ _ j h

/-- So does the first part. -/
theorem part1 (a4 a5 : IVec Cert.Pre_finite_inputs.S64 32) (a6 : FVec Ideal Cert.Pre_finite_inputs.S128x128 .f32)
    (a7 : FVec Ideal Cert.Pre_finite_inputs.S128 .f32) (a8 : FVec Ideal Cert.Pre_finite_inputs.S128x128 .f32)
    (a9 : FVec Ideal Cert.Pre_finite_inputs.S128 .f32) (a10 : FVec Ideal Cert.Pre_finite_inputs.S128x128 .f32)
    (a11 : FVec Ideal Cert.Pre_finite_inputs.S128 .f32) (a12 : FVec Ideal Cert.Pre_finite_inputs.S256x2 .f32)
    (a13 : FVec Ideal Cert.Pre_finite_inputs.S2 .f32) (v13 : IVec Cert.Pre_finite_inputs.S_ 1)
    (v16 : IVec Cert.Pre_finite_inputs.S64x128x128 1) (j : Cert.Pre_finite_inputs.S_.Idx)
    (h : Cert.Pre_finite_inputs.fn_part1 (F := Ideal) a4 a5 a6 a7 a8 a9 a10 a11 a12 a13 v13 v16 j = 1#1) :
    (∀ i, 0 ≤ (a4 i).toInt ∧ (a4 i).toInt ≤ 128) ∧ (∀ i, 0 ≤ (a5 i).toInt ∧ (a5 i).toInt ≤ 128) := by
  unfold Cert.Pre_finite_inputs.fn_part1 at h
  dsimp only at h
  exact part2 _ _ _ _ _ _ _ _ j h

/-- THE PRECONDITION DECODED: when the precondition's bit is 1, each graph's node count, in either array of counts, is
    between 0 and 128. -/
theorem sizes_ok (a0 a1 a2 a3 : FVec Ideal Cert.Pre_finite_inputs.S64x128x128 .f32)
    (a4 a5 : IVec Cert.Pre_finite_inputs.S64 32) (a6 : FVec Ideal Cert.Pre_finite_inputs.S128x128 .f32)
    (a7 : FVec Ideal Cert.Pre_finite_inputs.S128 .f32) (a8 : FVec Ideal Cert.Pre_finite_inputs.S128x128 .f32)
    (a9 : FVec Ideal Cert.Pre_finite_inputs.S128 .f32) (a10 : FVec Ideal Cert.Pre_finite_inputs.S128x128 .f32)
    (a11 : FVec Ideal Cert.Pre_finite_inputs.S128 .f32) (a12 : FVec Ideal Cert.Pre_finite_inputs.S256x2 .f32)
    (a13 : FVec Ideal Cert.Pre_finite_inputs.S2 .f32)
    (h : Cert.Pre_finite_inputs.fn (F := Ideal) a0 a1 a2 a3 a4 a5 a6 a7 a8 a9 a10 a11 a12 a13 = fun _ => 1#1) :
    (∀ b : Fin 64, 0 ≤ Cert.Gnn.cnt a4 b ∧ Cert.Gnn.cnt a4 b ≤ 128) ∧
      (∀ b : Fin 64, 0 ≤ Cert.Gnn.cnt a5 b ∧ Cert.Gnn.cnt a5 b ≤ 128) := by
  have h0 := congrFun h ix0
  unfold Cert.Pre_finite_inputs.fn at h0
  dsimp only at h0
  obtain ⟨h4, h5⟩ := part1 _ _ _ _ _ _ _ _ _ _ _ _ ix0 h0
  exact ⟨fun b => h4 (ix1 b), fun b => h5 (ix1 b)⟩

end Chain

end Cert.Gnn.Pre

end
-- ==== Proof.lean ====
/-
  The certificate of the fused graph-pair network against its plain reference, on the extended reals.

  Both programs compute, for each of the 64 graph pairs, a two-layer graph convolution on each member, the mean of a
  per-node linear map over the member's nodes, and one dense layer on the joined pair.  The kernel masks the rows of
  the activations and sums over a graph's nodes before the aggregator's matrix, entering the bias as `s · ba`; the
  reference masks the adjacency and sums the per-node aggregates.  The two agree when every node count `s` satisfies
  `0 ≤ s ≤ 128` (a mask entry is 0 or 1, and the number of unmasked slots is then `s`), which the precondition states;
  no finiteness of the float inputs is used.

  The kernel's result array is read off its frame run block by block (`KerValue.run`), the reference's off its run
  (`RefValue.run_is_GR`), and `GR_eq_G` joins them.
-/
import proofs.«138933_g17179869476_cont_week2b_1059_28_alg».proof.Defs
import proofs.«138933_g17179869476_cont_week2b_1059_28_alg».proof.Proof.Gen.Kernel
import proofs.«138933_g17179869476_cont_week2b_1059_28_alg».proof.Proof.Gen.Kernel.Skeleton
import proofs.«138933_g17179869476_cont_week2b_1059_28_alg».proof.Proof.Gen.Kernel.Launch
import proofs.«138933_g17179869476_cont_week2b_1059_28_alg».proof.Proof.Gen.Kernel.Points
import proofs.«138933_g17179869476_cont_week2b_1059_28_alg».proof.Proof.Gen.Kernel.Frame
import proofs.«138933_g17179869476_cont_week2b_1059_28_alg».proof.Proof.Gen.KernelIdeal
import proofs.«138933_g17179869476_cont_week2b_1059_28_alg».proof.Proof.Gen.KernelIdeal.Skeleton
import proofs.«138933_g17179869476_cont_week2b_1059_28_alg».proof.Proof.Gen.KernelIdeal.Launch
import proofs.«138933_g17179869476_cont_week2b_1059_28_alg».proof.Proof.Gen.KernelIdeal.Points
import proofs.«138933_g17179869476_cont_week2b_1059_28_alg».proof.Proof.Gen.KernelIdeal.Frame
import proofs.«138933_g17179869476_cont_week2b_1059_28_alg».proof.Proof.Gen.ReferenceIdeal
import proofs.«138933_g17179869476_cont_week2b_1059_28_alg».proof.Proof.Gen.KernelIdeal.Value
import proofs.«138933_g17179869476_cont_week2b_1059_28_alg».proof.Proof.Gen.ReferenceIdeal.Run
import proofs.«138933_g17179869476_cont_week2b_1059_28_alg».proof.Proof.Gen.ReferenceIdeal.Read
import proofs.«138933_g17179869476_cont_week2b_1059_28_alg».proof.Proof.Gen.Pre_finite_inputs
import proofs.«138933_g17179869476_cont_week2b_1059_28_alg».proof.Proof.KerArray
import proofs.«138933_g17179869476_cont_week2b_1059_28_alg».proof.Proof.RefIsSpec
import proofs.«138933_g17179869476_cont_week2b_1059_28_alg».proof.Proof.SpecLaw
import proofs.«138933_g17179869476_cont_week2b_1059_28_alg».proof.Proof.PreSizes
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the same array: the kernel's at the row-masked arrangement of the network, the reference's at
    the adjacency-masked one, of arguments that agree; the node counts' range makes the two arrangements equal. -/
theorem algebraic : Cert.algebraic_KernelIdeal_ReferenceIdeal := by
  intro m ρ m' ρ' hpre hagree
  refine ⟨_, Cert.Gnn.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.Gnn.RefValue.run_is_GR]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  have hs := Cert.Gnn.Pre.sizes_ok _ _ _ _ _ _ _ _ _ _ _ _ _ _ (hpre c)
  exact Cert.Gnn.GR_eq_G _ _ _ _ _ _ _ _ _ _ _ _ _ _ hs.1 hs.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
